-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x65536 : Shape := ⟨3, ![16, 32, 65536]⟩
abbrev S32x3x32 : Shape := ⟨3, ![32, 3, 32]⟩
abbrev S32 : Shape := ⟨1, ![32]⟩
abbrev S261120 : Shape := ⟨1, ![261120]⟩
abbrev S_ : Shape := ⟨0, ![]⟩

class Facts : Prop where
  bcast_S_S16x32x65536 : S_.BroadcastsInDim S16x32x65536 (![] : Fin 0 → Fin S16x32x65536.rank)
  reducesTo_S16x32x65536_S_d0_1_2 : S16x32x65536.ReducesTo [0, 1, 2] S_
  h_S_ : 0 < S_.numel
  bcast_S_S32x3x32 : S_.BroadcastsInDim S32x3x32 (![] : Fin 0 → Fin S32x3x32.rank)
  reducesTo_S32x3x32_S_d0_1_2 : S32x3x32.ReducesTo [0, 1, 2] S_
  bcast_S_S32 : S_.BroadcastsInDim S32 (![] : Fin 0 → Fin S32.rank)
  reducesTo_S32_S_d0 : S32.ReducesTo [0] S_
  bcast_S_S261120 : S_.BroadcastsInDim S261120 (![] : Fin 0 → Fin S261120.rank)
  reducesTo_S261120_S_d0 : S261120.ReducesTo [0] S_

variable [Facts]

def fn_part1 {F : FTy → Type} [FloatOps F] (main_v13 : IVec S_ 1) (main_v16 : IVec S261120 1) : IVec S_ 1 :=
  let main_c_5 : IVec S_ 1 := constantI S_ 1 1#1
  let main_v17 : IVec S_ 1 := (fun x v => Host.reduce IntOp.andi x v reducesTo_S261120_S_d0 h_S_) main_v16 main_c_5
  let main_v18 : IVec S_ 1 := andi main_v13 main_v17
  main_v18

def fn {F : FTy → Type} [FloatOps F] (main_arg0 : FVec F S16x32x65536 .f32) (main_arg1 : FVec F S32x3x32 .f32) (main_arg2 : FVec F S32 .f32) (main_arg3 : FVec F S261120 .f32) (main_arg4 : IVec S261120 32) (main_arg5 : IVec S261120 32) : IVec S_ 1 :=
  let main_v0 : FVec F S16x32x65536 .f32 := Host.absf main_arg0
  let main_cst : FVec F S_ .f32 := constant S_ .f32 0x7F800000#32
  let main_v1 : FVec F S16x32x65536 .f32 := broadcastInDim S16x32x65536 ![] bcast_S_S16x32x65536 main_cst
  let main_v2 : IVec S16x32x65536 1 := cmpf .olt main_v0 main_v1
  let main_c : IVec S_ 1 := constantI S_ 1 1#1
  let main_v3 : IVec S_ 1 := (fun x v => Host.reduce IntOp.andi x v reducesTo_S16x32x65536_S_d0_1_2 h_S_) main_v2 main_c
  let main_v4 : FVec F S32x3x32 .f32 := Host.absf main_arg1
  let main_cst_0 : FVec F S_ .f32 := constant S_ .f32 0x7F800000#32
  let main_v5 : FVec F S32x3x32 .f32 := broadcastInDim S32x3x32 ![] bcast_S_S32x3x32 main_cst_0
  let main_v6 : IVec S32x3x32 1 := cmpf .olt main_v4 main_v5
  let main_c_1 : IVec S_ 1 := constantI S_ 1 1#1
  let main_v7 : IVec S_ 1 := (fun x v => Host.reduce IntOp.andi x v reducesTo_S32x3x32_S_d0_1_2 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S261120 .f32 := Host.absf main_arg3
  let main_cst_4 : FVec F S_ .f32 := constant S_ .f32 0x7F800000#32
  let main_v15 : FVec F S261120 .f32 := broadcastInDim S261120 ![] bcast_S_S261120 main_cst_4
  let main_v16 : IVec S261120 1 := cmpf .olt main_v14 main_v15
  fn_part1 (F := F) main_v13 main_v16
-- ==== Kernel.lean ====
abbrev S16x32x65536 : Shape := ⟨3, ![16, 32, 65536]⟩
abbrev S32x3x32 : Shape := ⟨3, ![32, 3, 32]⟩
abbrev S32 : Shape := ⟨1, ![32]⟩
abbrev S261120 : Shape := ⟨1, ![261120]⟩
abbrev S65536x32x16 : Shape := ⟨3, ![65536, 32, 16]⟩
abbrev S65536x512 : Shape := ⟨2, ![65536, 512]⟩
abbrev S261120x1 : Shape := ⟨2, ![261120, 1]⟩
abbrev S_ : Shape := ⟨0, ![]⟩
abbrev S261120x512 : Shape := ⟨2, ![261120, 512]⟩
abbrev S1x65536x512 : Shape := ⟨3, ![1, 65536, 512]⟩
abbrev S3x65536x512 : Shape := ⟨3, ![3, 65536, 512]⟩
abbrev S3x65536x32x16 : Shape := ⟨4, ![3, 65536, 32, 16]⟩
abbrev S1x32 : Shape := ⟨2, ![1, 32]⟩
abbrev S65536x16x32 : Shape := ⟨3, ![65536, 16, 32]⟩
abbrev S3x256x32x16 : Shape := ⟨4, ![3, 256, 32, 16]⟩
abbrev S256x16x32 : Shape := ⟨3, ![256, 16, 32]⟩
abbrev S1x256x32x16 : Shape := ⟨4, ![1, 256, 32, 16]⟩
abbrev S256x32x16 : Shape := ⟨3, ![256, 32, 16]⟩
abbrev S4096x32 : Shape := ⟨2, ![4096, 32]⟩
abbrev S32x1x32 : Shape := ⟨3, ![32, 1, 32]⟩
abbrev S32x32 : Shape := ⟨2, ![32, 32]⟩
abbrev S1x1x32 : Shape := ⟨3, ![1, 1, 32]⟩

abbrev nBuf : Space → Nat
  | .hbm => 52
  | .vmem => 6
  | .smem => 0
  | _ => 0

abbrev bufTy : (tb : Table) → Fin (tcTables nBuf tb) → BufTy
  | .hbm, ⟨0, _⟩ => ⟨S16x32x65536, .f32⟩
  | .hbm, ⟨1, _⟩ => ⟨S32x3x32, .f32⟩
  | .hbm, ⟨2, _⟩ => ⟨S32, .f32⟩
  | .hbm, ⟨3, _⟩ => ⟨S261120, .f32⟩
  | .hbm, ⟨4, _⟩ => ⟨S261120, .i32⟩
  | .hbm, ⟨5, _⟩ => ⟨S261120, .i32⟩
  | .hbm, ⟨6, _⟩ => ⟨S65536x32x16, .f32⟩
  | .hbm, ⟨7, _⟩ => ⟨S65536x512, .f32⟩
  | .hbm, ⟨8, _⟩ => ⟨S261120x1, .f32⟩
  | .hbm, ⟨9, _⟩ => ⟨S_, .i32⟩
  | .hbm, ⟨10, _⟩ => ⟨S261120, .i32⟩
  | .hbm, ⟨11, _⟩ => ⟨S261120, .i1⟩
  | .hbm, ⟨12, _⟩ => ⟨S_, .i32⟩
  | .hbm, ⟨13, _⟩ => ⟨S261120, .i32⟩
  | .hbm, ⟨14, _⟩ => ⟨S261120, .i32⟩
  | .hbm, ⟨15, _⟩ => ⟨S261120, .i32⟩
  | .hbm, ⟨16, _⟩ => ⟨S261120x1, .i32⟩
  | .hbm, ⟨17, _⟩ => ⟨S261120x512, .f32⟩
  | .hbm, ⟨18, _⟩ => ⟨S261120x512, .f32⟩
  | .hbm, ⟨19, _⟩ => ⟨S261120x512, .f32⟩
  | .hbm, ⟨20, _⟩ => ⟨S_, .f32⟩
  | .hbm, ⟨21, _⟩ => ⟨S65536x512, .f32⟩
  | .hbm, ⟨22, _⟩ => ⟨S261120x1, .i32⟩
  | .hbm, ⟨23, _⟩ => ⟨S65536x512, .f32⟩
  | .hbm, ⟨24, _⟩ => ⟨S261120x1, .f32⟩
  | .hbm, ⟨25, _⟩ => ⟨S_, .i32⟩
  | .hbm, ⟨26, _⟩ => ⟨S261120, .i32⟩
  | .hbm, ⟨27, _⟩ => ⟨S261120, .i1⟩
  | .hbm, ⟨28, _⟩ => ⟨S_, .i32⟩
  | .hbm, ⟨29, _⟩ => ⟨S261120, .i32⟩
  | .hbm, ⟨30, _⟩ => ⟨S261120, .i32⟩
  | .hbm, ⟨31, _⟩ => ⟨S261120, .i32⟩
  | .hbm, ⟨32, _⟩ => ⟨S261120x1, .i32⟩
  | .hbm, ⟨33, _⟩ => ⟨S261120x512, .f32⟩
  | .hbm, ⟨34, _⟩ => ⟨S261120x512, .f32⟩
  | .hbm, ⟨35, _⟩ => ⟨S261120x512, .f32⟩
  | .hbm, ⟨36, _⟩ => ⟨S_, .f32⟩
  | .hbm, ⟨37, _⟩ => ⟨S65536x512, .f32⟩
  | .hbm, ⟨38, _⟩ => ⟨S261120x1, .i32⟩
  | .hbm, ⟨39, _⟩ => ⟨S65536x512, .f32⟩
  | .hbm, ⟨40, _⟩ => ⟨S_, .f32⟩
  | .hbm, ⟨41, _⟩ => ⟨S65536x512, .f32⟩
  | .hbm, ⟨42, _⟩ => ⟨S65536x512, .f32⟩
  | .hbm, ⟨43, _⟩ => ⟨S65536x512, .f32⟩
  | .hbm, ⟨44, _⟩ => ⟨S1x65536x512, .f32⟩
  | .hbm, ⟨45, _⟩ => ⟨S1x65536x512, .f32⟩
  | .hbm, ⟨46, _⟩ => ⟨S1x65536x512, .f32⟩
  | .hbm, ⟨47, _⟩ => ⟨S3x65536x512, .f32⟩
  | .hbm, ⟨48, _⟩ => ⟨S3x65536x32x16, .f32⟩
  | .hbm, ⟨49, _⟩ => ⟨S1x32, .f32⟩
  | .hbm, ⟨50, _⟩ => ⟨S65536x16x32, .f32⟩
  | .hbm, ⟨51, _⟩ => ⟨S16x32x65536, .f32⟩
  | .local _ .vmem, ⟨0, _⟩ => ⟨S3x256x32x16, .f32⟩
  | .local _ .vmem, ⟨1, _⟩ => ⟨S3x256x32x16, .f32⟩
  | .local _ .vmem, ⟨2, _⟩ => ⟨S32x3x32, .f32⟩
  | .local _ .vmem, ⟨3, _⟩ => ⟨S1x32, .f32⟩
  | .local _ .vmem, ⟨4, _⟩ => ⟨S256x16x32, .f32⟩
  | .local _ .vmem, ⟨5, _⟩ => ⟨S256x16x32, .f32⟩
  | _, _ => ⟨S16x32x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x256x32x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x3x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x16x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S16x32x65536_S65536x32x16_2_1_0 : S16x32x65536.Transposes [2, 1, 0] S65536x32x16
  shapeCasts_S65536x32x16_S65536x512 : S65536x32x16.ShapeCasts S65536x512
  bcast_S261120_S261120x1_0 : S261120.BroadcastsInDim S261120x1 (![0] : Fin 1 → Fin S261120x1.rank)
  bcast_S_S261120 : S_.BroadcastsInDim S261120 (![] : Fin 0 → Fin S261120.rank)
  bcast_S261120x1_S261120x512_0_1 : S261120x1.BroadcastsInDim S261120x512 (![0, 1] : Fin 2 → Fin S261120x512.rank)
  bcast_S_S65536x512 : S_.BroadcastsInDim S65536x512 (![] : Fin 0 → Fin S65536x512.rank)
  bcast_S65536x512_S1x65536x512_1_2 : S65536x512.BroadcastsInDim S1x65536x512 (![1, 2] : Fin 2 → Fin S1x65536x512.rank)
  concatenates_S1x65536x512_S1x65536x512_S1x65536x512_S3x65536x512_d0 : Shape.Concatenates [S1x65536x512, S1x65536x512, S1x65536x512] S3x65536x512 0
  shapeCasts_S3x65536x512_S3x65536x32x16 : S3x65536x512.ShapeCasts S3x65536x32x16
  shapeCasts_S32_S1x32 : S32.ShapeCasts S1x32
  inb_S32x3x32_S32x3x32_0_0_0 : ∀ a, (![0, 0, 0] : Fin 3 → Nat) a + S32x3x32.size a ≤ S32x3x32.size a
  h_S32x3x32 : 0 < S32x3x32.numel
  inb_S3x256x32x16_S1x256x32x16_0_0_0_0 : ∀ a, (![0, 0, 0, 0] : Fin 4 → Nat) a + S1x256x32x16.size a ≤ S3x256x32x16.size a
  h_S1x256x32x16 : 0 < S1x256x32x16.numel
  shapeCasts_S1x256x32x16_S256x32x16 : S1x256x32x16.ShapeCasts S256x32x16
  transposes_S256x32x16_p0_2_1_S256x16x32 : S256x32x16.Transposes [0, 2, 1] S256x16x32
  shapeCasts_S256x16x32_S4096x32 : S256x16x32.ShapeCasts S4096x32
  bitsLt_bf16_f32 : FTy.bits .bf16 < FTy.bits .f32
  slices_S32x3x32_o0_0_0_S32x1x32 : S32x3x32.Slices ![0, 0, 0] S32x1x32
  shapeCasts_S32x1x32_S32x32 : S32x1x32.ShapeCasts S32x32
  shapeCasts_S4096x32_S256x16x32 : S4096x32.ShapeCasts S256x16x32
  inb_S3x256x32x16_S1x256x32x16_1_0_0_0 : ∀ a, (![1, 0, 0, 0] : Fin 4 → Nat) a + S1x256x32x16.size a ≤ S3x256x32x16.size a
  slices_S32x3x32_o0_1_0_S32x1x32 : S32x3x32.Slices ![0, 1, 0] S32x1x32
  inb_S3x256x32x16_S1x256x32x16_2_0_0_0 : ∀ a, (![2, 0, 0, 0] : Fin 4 → Nat) a + S1x256x32x16.size a ≤ S3x256x32x16.size a
  slices_S32x3x32_o0_2_0_S32x1x32 : S32x3x32.Slices ![0, 2, 0] S32x1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S1x32_S1x1x32 : S1x32.ShapeCasts S1x1x32
  broadcasts_S1x1x32_S256x16x32 : S1x1x32.Broadcasts S256x16x32
  inb_S256x16x32_S256x16x32_0_0_0 : ∀ a, (![0, 0, 0] : Fin 3 → Nat) a + S256x16x32.size a ≤ S256x16x32.size a
  h_S256x16x32 : 0 < S256x16x32.numel
  transposes_S65536x16x32_S16x32x65536_1_2_0 : S65536x16x32.Transposes [1, 2, 0] S16x32x65536
  gather_S65536x512_S261120x1_S261120x512_1_0_n_n_0_1_1512_wf : GatherDims.WF S65536x512 S261120x1 S261120x512 [1] [0] [] [0] [] 1 ![1, 512]
  scatter_S65536x512_S261120x1_S261120x512_1_0_0_1_wf : ScatterDims.WF S65536x512 S261120x1 S261120x512 [1] [0] [0] 1
  dot_S4096x32_S32x32_S4096x32_1_0_0_1_n_n_wf : DotDims.WF S4096x32 S32x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x256x32x16.size a ≤ S3x65536x32x16.size a
  hwx0_0 : ∀ i : grid0.Coords, EltTy.bits .f32 = 32 ∨ (Rect.block (s := S3x65536x32x16) S3x256x32x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x3x32.size a ≤ S32x3x32.size a
  hwx0_1 : ∀ i : grid0.Coords, EltTy.bits .f32 = 32 ∨ (Rect.block (s := S32x3x32) S32x3x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x16x32.size a ≤ S65536x16x32.size a
  hwx0_3 : ∀ i : grid0.Coords, EltTy.bits .f32 = 32 ∨ (Rect.block (s := S65536x16x32) S256x16x32.size (cc0_transform_3 i) (hinb0_3 i)).WholeWords (EltTy.packing .f32)

variable [Facts₀]

def gather_S65536x512_S261120x1_S261120x512_1_0_n_n_0_1_1512 : GatherDims S65536x512 S261120x1 S261120x512 where
  offsetDims := [1]
  collapsedSliceDims := [0]
  operandBatchingDims := []
  startIndicesBatchingDims := []
  startIndexMap := [0]
  indexVectorDim := 1
  sliceSizes := ![1, 512]
  wf := gather_S65536x512_S261120x1_S261120x512_1_0_n_n_0_1_1512_wf
def scatter_S65536x512_S261120x1_S261120x512_1_0_0_1 : ScatterDims S65536x512 S261120x1 S261120x512 where
  updateWindowDims := [1]
  insertedWindowDims := [0]
  scatterDimsToOperandDims := [0]
  indexVectorDim := 1
  wf := scatter_S65536x512_S261120x1_S261120x512_1_0_0_1_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf

abbrev win0_0 : Pipeline.Window sig grid0 :=
  Pipeline.Window.ofSpec (Memref.whole main_v35) S3x256x32x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x3x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S256x16x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x32x65536 : Shape := ⟨3, ![16, 32, 65536]⟩
abbrev S32x3x32 : Shape := ⟨3, ![32, 3, 32]⟩
abbrev S32 : Shape := ⟨1, ![32]⟩
abbrev S261120 : Shape := ⟨1, ![261120]⟩
abbrev S65536x32x16 : Shape := ⟨3, ![65536, 32, 16]⟩
abbrev S65536x512 : Shape := ⟨2, ![65536, 512]⟩
abbrev S261120x1 : Shape := ⟨2, ![261120, 1]⟩
abbrev S_ : Shape := ⟨0, ![]⟩
abbrev S261120x512 : Shape := ⟨2, ![261120, 512]⟩
abbrev S1x65536x512 : Shape := ⟨3, ![1, 65536, 512]⟩
abbrev S3x65536x512 : Shape := ⟨3, ![3, 65536, 512]⟩
abbrev S3x65536x32x16 : Shape := ⟨4, ![3, 65536, 32, 16]⟩
abbrev S16x65536x32x3 : Shape := ⟨4, ![16, 65536, 32, 3]⟩
abbrev S1048576x96 : Shape := ⟨2, ![1048576, 96]⟩
abbrev S96x32 : Shape := ⟨2, ![96, 32]⟩
abbrev S1048576x32 : Shape := ⟨2, ![1048576, 32]⟩
abbrev S1x32 : Shape := ⟨2, ![1, 32]⟩
abbrev S16x65536x32 : Shape := ⟨3, ![16, 65536, 32]⟩

abbrev nBuf : Space → Nat
  | .hbm => 58
  | .vmem => 0
  | .smem => 0
  | _ => 0

abbrev bufTy : (tb : Table) → Fin (tcTables nBuf tb) → BufTy
  | .hbm, ⟨0, _⟩ => ⟨S16x32x65536, .f32⟩
  | .hbm, ⟨1, _⟩ => ⟨S32x3x32, .f32⟩
  | .hbm, ⟨2, _⟩ => ⟨S32, .f32⟩
  | .hbm, ⟨3, _⟩ => ⟨S261120, .f32⟩
  | .hbm, ⟨4, _⟩ => ⟨S261120, .i32⟩
  | .hbm, ⟨5, _⟩ => ⟨S261120, .i32⟩
  | .hbm, ⟨6, _⟩ => ⟨S65536x32x16, .f32⟩
  | .hbm, ⟨7, _⟩ => ⟨S65536x512, .f32⟩
  | .hbm, ⟨8, _⟩ => ⟨S261120x1, .f32⟩
  | .hbm, ⟨9, _⟩ => ⟨S_, .i32⟩
  | .hbm, ⟨10, _⟩ => ⟨S261120, .i32⟩
  | .hbm, ⟨11, _⟩ => ⟨S261120, .i1⟩
  | .hbm, ⟨12, _⟩ => ⟨S_, .i32⟩
  | .hbm, ⟨13, _⟩ => ⟨S261120, .i32⟩
  | .hbm, ⟨14, _⟩ => ⟨S261120, .i32⟩
  | .hbm, ⟨15, _⟩ => ⟨S261120, .i32⟩
  | .hbm, ⟨16, _⟩ => ⟨S261120x1, .i32⟩
  | .hbm, ⟨17, _⟩ => ⟨S261120x512, .f32⟩
  | .hbm, ⟨18, _⟩ => ⟨S261120x512, .f32⟩
  | .hbm, ⟨19, _⟩ => ⟨S261120x512, .f32⟩
  | .hbm, ⟨20, _⟩ => ⟨S_, .f32⟩
  | .hbm, ⟨21, _⟩ => ⟨S65536x512, .f32⟩
  | .hbm, ⟨22, _⟩ => ⟨S261120x1, .i32⟩
  | .hbm, ⟨23, _⟩ => ⟨S65536x512, .f32⟩
  | .hbm, ⟨24, _⟩ => ⟨S261120x1, .f32⟩
  | .hbm, ⟨25, _⟩ => ⟨S_, .i32⟩
  | .hbm, ⟨26, _⟩ => ⟨S261120, .i32⟩
  | .hbm, ⟨27, _⟩ => ⟨S261120, .i1⟩
  | .hbm, ⟨28, _⟩ => ⟨S_, .i32⟩
  | .hbm, ⟨29, _⟩ => ⟨S261120, .i32⟩
  | .hbm, ⟨30, _⟩ => ⟨S261120, .i32⟩
  | .hbm, ⟨31, _⟩ => ⟨S261120, .i32⟩
  | .hbm, ⟨32, _⟩ => ⟨S261120x1, .i32⟩
  | .hbm, ⟨33, _⟩ => ⟨S261120x512, .f32⟩
  | .hbm, ⟨34, _⟩ => ⟨S261120x512, .f32⟩
  | .hbm, ⟨35, _⟩ => ⟨S261120x512, .f32⟩
  | .hbm, ⟨36, _⟩ => ⟨S_, .f32⟩
  | .hbm, ⟨37, _⟩ => ⟨S65536x512, .f32⟩
  | .hbm, ⟨38, _⟩ => ⟨S261120x1, .i32⟩
  | .hbm, ⟨39, _⟩ => ⟨S65536x512, .f32⟩
  | .hbm, ⟨40, _⟩ => ⟨S_, .f32⟩
  | .hbm, ⟨41, _⟩ => ⟨S65536x512, .f32⟩
  | .hbm, ⟨42, _⟩ => ⟨S65536x512, .f32⟩
  | .hbm, ⟨43, _⟩ => ⟨S65536x512, .f32⟩
  | .hbm, ⟨44, _⟩ => ⟨S1x65536x512, .f32⟩
  | .hbm, ⟨45, _⟩ => ⟨S1x65536x512, .f32⟩
  | .hbm, ⟨46, _⟩ => ⟨S1x65536x512, .f32⟩
  | .hbm, ⟨47, _⟩ => ⟨S3x65536x512, .f32⟩
  | .hbm, ⟨48, _⟩ => ⟨S3x65536x32x16, .f32⟩
  | .hbm, ⟨49, _⟩ => ⟨S16x65536x32x3, .f32⟩
  | .hbm, ⟨50, _⟩ => ⟨S1048576x96, .f32⟩
  | .hbm, ⟨51, _⟩ => ⟨S96x32, .f32⟩
  | .hbm, ⟨52, _⟩ => ⟨S1048576x32, .f32⟩
  | .hbm, ⟨53, _⟩ => ⟨S1x32, .f32⟩
  | .hbm, ⟨54, _⟩ => ⟨S1048576x32, .f32⟩
  | .hbm, ⟨55, _⟩ => ⟨S1048576x32, .f32⟩
  | .hbm, ⟨56, _⟩ => ⟨S16x65536x32, .f32⟩
  | .hbm, ⟨57, _⟩ => ⟨S16x32x65536, .f32⟩
  | _, _ => ⟨S16x32x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]

class Facts₀ : Prop where
  transposes_S16x32x65536_S65536x32x16_2_1_0 : S16x32x65536.Transposes [2, 1, 0] S65536x32x16
  shapeCasts_S65536x32x16_S65536x512 : S65536x32x16.ShapeCasts S65536x512
  bcast_S261120_S261120x1_0 : S261120.BroadcastsInDim S261120x1 (![0] : Fin 1 → Fin S261120x1.rank)
  bcast_S_S261120 : S_.BroadcastsInDim S261120 (![] : Fin 0 → Fin S261120.rank)
  bcast_S261120x1_S261120x512_0_1 : S261120x1.BroadcastsInDim S261120x512 (![0, 1] : Fin 2 → Fin S261120x512.rank)
  bcast_S_S65536x512 : S_.BroadcastsInDim S65536x512 (![] : Fin 0 → Fin S65536x512.rank)
  bcast_S65536x512_S1x65536x512_1_2 : S65536x512.BroadcastsInDim S1x65536x512 (![1, 2] : Fin 2 → Fin S1x65536x512.rank)
  concatenates_S1x65536x512_S1x65536x512_S1x65536x512_S3x65536x512_d0 : Shape.Concatenates [S1x65536x512, S1x65536x512, S1x65536x512] S3x65536x512 0
  shapeCasts_S3x65536x512_S3x65536x32x16 : S3x65536x512.ShapeCasts S3x65536x32x16
  transposes_S3x65536x32x16_S16x65536x32x3_3_1_2_0 : S3x65536x32x16.Transposes [3, 1, 2, 0] S16x65536x32x3
  shapeCasts_S16x65536x32x3_S1048576x96 : S16x65536x32x3.ShapeCasts S1048576x96
  shapeCasts_S32x3x32_S96x32 : S32x3x32.ShapeCasts S96x32
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  shapeCasts_S1048576x32_S16x65536x32 : S1048576x32.ShapeCasts S16x65536x32
  transposes_S16x65536x32_S16x32x65536_0_2_1 : S16x65536x32.Transposes [0, 2, 1] S16x32x65536
  gather_S65536x512_S261120x1_S261120x512_1_0_n_n_0_1_1512_wf : GatherDims.WF S65536x512 S261120x1 S261120x512 [1] [0] [] [0] [] 1 ![1, 512]
  scatter_S65536x512_S261120x1_S261120x512_1_0_0_1_wf : ScatterDims.WF S65536x512 S261120x1 S261120x512 [1] [0] [0] 1
  dot_S1048576x96_S96x32_S1048576x32_1_0_0_1_n_n_wf : DotDims.WF S1048576x96 S96x32 S1048576x32 [1] [0] [0] [1] [] []

variable [Facts₀]

def gather_S65536x512_S261120x1_S261120x512_1_0_n_n_0_1_1512 : GatherDims S65536x512 S261120x1 S261120x512 where
  offsetDims := [1]
  collapsedSliceDims := [0]
  operandBatchingDims := []
  startIndicesBatchingDims := []
  startIndexMap := [0]
  indexVectorDim := 1
  sliceSizes := ![1, 512]
  wf := gather_S65536x512_S261120x1_S261120x512_1_0_n_n_0_1_1512_wf
def scatter_S65536x512_S261120x1_S261120x512_1_0_0_1 : ScatterDims S65536x512 S261120x1 S261120x512 where
  updateWindowDims := [1]
  insertedWindowDims := [0]
  scatterDimsToOperandDims := [0]
  indexVectorDim := 1
  wf := scatter_S65536x512_S261120x1_S261120x512_1_0_0_1_wf
def dot_S1048576x96_S96x32_S1048576x32_1_0_0_1_n_n : DotDims S1048576x96 S96x32 S1048576x32 where
  lhsContracting := [1]
  rhsContracting := [0]
  lhsNonContracting := [0]
  rhsNonContracting := [1]
  lhsBatch := []
  rhsBatch := []
  wf := dot_S1048576x96_S96x32_S1048576x32_1_0_0_1_n_n_wf

class Facts : Prop extends Facts₀ where

variable [Facts]
-- ==== Proof.KernelRun.lean ====
/-
  The run of `Kernel`'s @main, at any reading of the floats.

  @main is three stretches: the host operations that build the three stacked feature arrays and reshape the bias to a
  row, one grid of 256 tiles, and the final transposition. A tile is 256 consecutive vertices: the grid point `t`
  is handed rows `256·t … 256·t + 255` of the stacked features (all three terms), the whole weight and the bias row
  (both fetched once, at the first point), and writes rows `256·t … 256·t + 255` of the `[65536, 16, 32]` result.
  The body reads its four buffers through rectangles that lie inside them and overwrites the whole output tile with
  one store, so what the output buffer holds after the body is that store's value, a function of the three input
  tiles alone (`tileOut`). Nothing the body does depends on the point, no buffer is shared between windows, and
  no host operation writes an argument array: every weakly fair execution ends, faults nowhere, leaves the six
  arguments as launched, and leaves the result array at the tiles the points wrote, transposed by the last line.
-/
import proofs.«168547_j86663850098736_2_alg».proof.Proof.Gen.Kernel.Launch
import proofs.«168547_j86663850098736_2_alg».proof.Proof.Gen.Kernel.Skeleton
import proofs.«168547_j86663850098736_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.TileRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the grid starts -/

/-- Every buffer of core `c` after the host operations that precede the grid, from the launch contents `m`. -/
abbrev atGrid₀ (c : Dev nD) : Valuation τ sig (Elt F) := StableHlo.after (List.flatten [hostOps0]) (fun b => m (c, b))
/-- The same, read at one of the core's own references. -/
abbrev atGrid (c : Dev nD) (b : Ref sig .tc) : Buf (Elt F) ((c : Thread nD τ).loc b) := atGrid₀ m c (Proc.devRef .tc b)

/-- No host operation allocates a buffer. -/
theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- @main is the first stretch, the grid, and the last stretch, in that order. -/
theorem main_split (𝒱₀ : Variants) : Pipeline.HMainK (Ix := Unit) (Name := ℕ) (U := UR sig nD τ) (Lvl := ℕ) cfgs 0 defs₀ 𝒱₀ m (main (F := F)) (atGrid m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The last stretch touches only unscoped buffers of the core, -/
theorem last_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem last_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp after_fresh) op hop
/-- and writes none of the four arrays the grid works on (it writes the transposed result only). -/
theorem last_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.unary_writes, Finset.mem_singleton] <;> exact StableHlo.devRef_ne_of_ne (by decide)

/-- Each operation of a stretch writes its own result buffer, which is not the reference in question. -/
local macro "not_written" : tactic => `(tactic| (
  simp only [hostOps0, hostOps1, List.flatten_cons, List.flatten_nil, List.append_nil, List.cons_append,
    List.nil_append, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

/-- A reference no operation of the first stretch writes is found by the grid as launched. -/
theorem atGrid_of_not_written (c : Dev nD) (b : Ref sig .tc)
    (h : (List.flatten [(hostOps0 : List (HloOp τ sig (Elt F)))]).Forall fun op => Proc.devRef .tc b ∉ op.writes) :
    atGrid m c b = m ((c : Thread nD τ).loc b) :=
  StableHlo.after_of_forall_not_mem (b := Proc.devRef .tc b) _ _ (List.forall_iff_forall_mem.mp h)

theorem atGrid_arg0 (c : Dev nD) : atGrid m c main_arg0 = m ((c : Thread nD τ).loc main_arg0) :=
  atGrid_of_not_written m c main_arg0 (by not_written)
theorem atGrid_arg1 (c : Dev nD) : atGrid m c main_arg1 = m ((c : Thread nD τ).loc main_arg1) :=
  atGrid_of_not_written m c main_arg1 (by not_written)
theorem atGrid_arg2 (c : Dev nD) : atGrid m c main_arg2 = m ((c : Thread nD τ).loc main_arg2) :=
  atGrid_of_not_written m c main_arg2 (by not_written)
theorem atGrid_arg3 (c : Dev nD) : atGrid m c main_arg3 = m ((c : Thread nD τ).loc main_arg3) :=
  atGrid_of_not_written m c main_arg3 (by not_written)
theorem atGrid_arg4 (c : Dev nD) : atGrid m c main_arg4 = m ((c : Thread nD τ).loc main_arg4) :=
  atGrid_of_not_written m c main_arg4 (by not_written)
theorem atGrid_arg5 (c : Dev nD) : atGrid m c main_arg5 = m ((c : Thread nD τ).loc main_arg5) :=
  atGrid_of_not_written m c main_arg5 (by not_written)

/-- A reference that is none of the grid's four arrays and that the last stretch does not write ends as the grid
    found it. -/
theorem atEnd_of_not_written (dats : (p : Fin 1) → (c : Dev nD) → Dat τ (Elt F) Unit ℕ (UR sig nD τ) ℕ (cfgs p) c) (c : Dev nD)
    (b : Ref sig .tc) (hb : ∀ w, Pipeline.arrRef spec0 w ≠ b)
    (h : (List.flatten [(hostOps1 : List (HloOp τ sig (Elt F)))]).Forall fun op => Proc.devRef .tc b ∉ op.writes) :
    Pipeline.afterTail₀ cfgs dats 0 (atGrid₀ m) [hostOps1] c b = atGrid m c b := by
  unfold Pipeline.afterTail₀
  rw [StableHlo.after_of_forall_not_mem (b := Proc.devRef .tc b) _ _ (List.forall_iff_forall_mem.mp h),
    Pipeline.withArrays_of_ne _ c (atGrid₀ m c) _ b hb]

/-! ## The tiles -/

/-- Window `w`'s tile at point `t`, read off its array as the grid finds it. -/
def tileOf (c : Dev nD) (w : Fin cfg0.W) (t : Fin cfg0.N) : ((cfg0.win w).xblock (cfg0.grid.coords t)).Idx → Elt F (cfg0.win w).elt :=
  ((cfg0.win w).blk t).view.read (Elt F) (atGrid m c (Pipeline.arrRef spec0 w))

/-- An input window's current buffer holds its tile at every point — at a point that does not fetch it, because its
    tile index has not moved since the point that did — whenever the body leaves input buffers as it found them. -/
theorem input0_held {c : Dev nD} (dat : Dat τ (Elt F) Unit ℕ (UR sig nD τ) ℕ cfg0 c) (hA : dat.A 0 = atGrid m c (Pipeline.arrRef spec0 0))
    (hafter : ∀ t, dat.after 0 t = tileOf m c 0 t) (t : Fin cfg0.N) (d) : dat.before 0 t d = tileOf m c 0 t :=
  (dat.before_in_eq_fetched 0 rfl (fun _ => rfl) (fun _ _ _ => rfl) (fun t => by rw [hafter]; unfold Dat.blockOf tileOf; rw [hA]; try rfl) t d).trans
    (by unfold Dat.fetched Dat.blockOf tileOf; rw [hA]; try rfl)
theorem input1_held {c : Dev nD} (dat : Dat τ (Elt F) Unit ℕ (UR sig nD τ) ℕ cfg0 c) (hA : dat.A 1 = atGrid m c (Pipeline.arrRef spec0 1))
    (hafter : ∀ t, dat.after 1 t = tileOf m c 1 t) (t : Fin cfg0.N) (d) : dat.before 1 t d = tileOf m c 1 t :=
  (dat.before_in_eq_fetched 1 rfl (fun _ => rfl) (fun _ _ _ => rfl) (fun t => by rw [hafter]; unfold Dat.blockOf tileOf; rw [hA]; try rfl) t d).trans
    (by unfold Dat.fetched Dat.blockOf tileOf; rw [hA]; try rfl)
theorem input2_held {c : Dev nD} (dat : Dat τ (Elt F) Unit ℕ (UR sig nD τ) ℕ cfg0 c) (hA : dat.A 2 = atGrid m c (Pipeline.arrRef spec0 2))
    (hafter : ∀ t, dat.after 2 t = tileOf m c 2 t) (t : Fin cfg0.N) (d) : dat.before 2 t d = tileOf m c 2 t :=
  (dat.before_in_eq_fetched 2 rfl (fun _ => rfl) (fun _ _ _ => rfl) (fun t => by rw [hafter]; unfold Dat.blockOf tileOf; rw [hA]; try rfl) t d).trans
    (by unfold Dat.fetched Dat.blockOf tileOf; rw [hA]; try rfl)

/-! ## What the body reads and writes -/

/-- The three slabs of the feature tile (one per polynomial term), the whole weight, the bias row, the whole output tile. -/
abbrev slab0 : Rect S3x256x32x16 := Rect.unit (s := S3x256x32x16) ![0, 0, 0, 0] S1x256x32x16.size inb_S3x256x32x16_S1x256x32x16_0_0_0_0
abbrev slab1 : Rect S3x256x32x16 := Rect.unit (s := S3x256x32x16) ![1, 0, 0, 0] S1x256x32x16.size inb_S3x256x32x16_S1x256x32x16_1_0_0_0
abbrev slab2 : Rect S3x256x32x16 := Rect.unit (s := S3x256x32x16) ![2, 0, 0, 0] S1x256x32x16.size inb_S3x256x32x16_S1x256x32x16_2_0_0_0
abbrev allW : Rect S32x3x32 := Rect.unit (s := S32x3x32) ![0, 0, 0] S32x3x32.size inb_S32x3x32_S32x3x32_0_0_0
abbrev allB : Rect S1x32 := Rect.unit (s := S1x32) ![0, 0] S1x32.size inb_S1x32_S1x32_0_0
abbrev allOut : Rect S256x16x32 := Rect.unit (s := S256x16x32) ![0, 0, 0] S256x16x32.size inb_S256x16x32_S256x16x32_0_0_0

/-- The output buffer after the body: its one store, which covers the buffer, over what the body loaded. -/
def tileOut (x : Vec F S3x256x32x16 .f32) (w : Vec F S32x3x32 .f32) (b : Vec F S1x32 .f32) : Vec F S256x16x32 .f32 :=
  View.canon [⟨allOut, k0_pay1 (k0_pay2 (View.ld w allW) (View.ld x slab0) (View.ld x slab1) (View.ld x slab2)) (k0_pay3 (View.ld b allB))⟩]

theorem store_covers (p0 : Vec F S256x16x32 .f32) (y : S256x16x32.Idx) :
    ∃ pc ∈ ([⟨allOut, p0⟩] : List (View.Piece (Elt F) S256x16x32 .f32)), y ∈ pc.1.set :=
  View.cover_of_tiled [⟨allOut, p0⟩] S256x16x32.size (by rfl) y

set_option maxHeartbeats 1000000 in
/-- The body on whole buffers — the three inputs at contents `x`, `w`, `b`, the output at anything — runs to its
    end, leaves the inputs as they were and the output at `tileOut x w b`. -/
theorem body_runs (c : Dev nD) (E : Set ℕ) (i : grid0.Coords)
    (arg1 : Memref sig .tc .vmem S3x256x32x16 .f32) (harg1 : arg1.IsWhole) (arg2 : Memref sig .tc .vmem S32x3x32 .f32) (harg2 : arg2.IsWhole)
    (arg3 : Memref sig .tc .vmem S1x32 .f32) (harg3 : arg3.IsWhole) (arg4 : Memref sig .tc .vmem S256x16x32 .f32) (harg4 : arg4.IsWhole)
    (x : Vec F S3x256x32x16 .f32) (w : Vec F S32x3x32 .f32) (b : Vec F S1x32 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (tileOut x w b)) -∗ K ⟨⟩))
      ⊢ wp frame (wpE (defs₀ (F := F)) Variants.none c none) E (cc0__combine_kernel i arg1 harg1 arg2 harg2 arg3 harg3 arg4 harg4) K := by
  simp only [cc0__combine_kernel_eq_skeleton]; unfold cc0__combine_kernel_skel
  simp only [k0_part1_eq_skeleton]; unfold k0_part1_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

/-! ## The grid's bookkeeping -/

/-- Per core: the four arrays as the grid finds them; after the body at point `t` each input buffer at its tile and the
    output buffer at `tileOut` of the three input tiles; nothing else of the core is touched. -/
def dats (_ : Fin 1) (c : Dev nD) : Dat τ (Elt F) Unit ℕ (UR sig nD τ) ℕ cfg0 c where
  A w := atGrid m c (Pipeline.arrRef spec0 w)
  after w t := match w with
    | ⟨0, _⟩ => tileOf m c 0 t
    | ⟨1, _⟩ => tileOf m c 1 t
    | ⟨2, _⟩ => tileOf m c 2 t
    | ⟨3, _⟩ => tileOut (tileOf m c 0 t) (tileOf m c 1 t) (tileOf m c 2 t)
  Φ _ := Pipeline.ΦA spec0 c
  q _ := fullShare
  owed _ := 0

theorem arrays_eq (c : Dev nD) (w : Fin cfg0.W) : (dats m 0 c).A w = atGrid m c (Pipeline.arrRef spec0 w) := by
  dsimp only [dats]

theorem after_in0 (c : Dev nD) (t : Fin cfg0.N) : (dats m 0 c).after 0 t = tileOf m c 0 t := by dsimp only [dats]
theorem after_in1 (c : Dev nD) (t : Fin cfg0.N) : (dats m 0 c).after 1 t = tileOf m c 1 t := by dsimp only [dats]
theorem after_in2 (c : Dev nD) (t : Fin cfg0.N) : (dats m 0 c).after 2 t = tileOf m c 2 t := by dsimp only [dats]
theorem after_out (c : Dev nD) (t : Fin cfg0.N) :
    (dats m 0 c).after 3 t = tileOut (tileOf m c 0 t) (tileOf m c 1 t) (tileOf m c 2 t) := by dsimp only [dats]

theorem before_in0 (c : Dev nD) (t : Fin cfg0.N) (d) : (dats m 0 c).before 0 t d = tileOf m c 0 t :=
  input0_held m (dats m 0 c) (arrays_eq m c 0) (after_in0 m c) t d
theorem before_in1 (c : Dev nD) (t : Fin cfg0.N) (d) : (dats m 0 c).before 1 t d = tileOf m c 1 t :=
  input1_held m (dats m 0 c) (arrays_eq m c 1) (after_in1 m c) t d
theorem before_in2 (c : Dev nD) (t : Fin cfg0.N) (d) : (dats m 0 c).before 2 t d = tileOf m c 2 t :=
  input2_held m (dats m 0 c) (arrays_eq m c 2) (after_in2 m c) t d

/-- What the body is handed at point `t`, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem body_at_point (c : Dev nD) (t : Fin cfg0.N) :
    handed m c t ⊢ wp frame (wpE (defs₀ (F := F)) Variants.none c none) Set.univ (bodyAt0 t) (fun _ => returned m c t) := by
  unfold handed returned bodyAt0
  simp only [before_in0, before_in1, before_in2]
  rw [show (dats m 0 c).Φ t.succ = (dats m 0 c).Φ t.castSucc from rfl,
    show (dats m 0 c).owesAt () t.succ = (dats m 0 c).owesAt () t.castSucc from rfl,
    after_in0, after_in1, after_in2, after_out]
  iintro ⟨HΦ, Ho, ⟨%d0, H0⟩, ⟨%d1, H1⟩, ⟨%d2, H2⟩, ⟨%d3, H3⟩⟩
  iapply (body_runs c Set.univ (grid0.coords t) _ _ _ _ _ _ _ _ (tileOf m c 0 t) (tileOf m c 1 t) (tileOf m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_everywhere (c : Dev nD) : BodyObligation (dats (F := F) m 0 c) (defs₀ (F := F)) Variants.none () Set.univ := fun t => by
  rw [bigSep_W0, bigSep_W0]
  exact body_at_point m c t

/-! ## The run -/

set_option backward.isDefEq.respectTransparency.types false in
/-- Every weakly fair execution of @main terminates; the grid's four arrays end at what the points wrote back (an
    input array as it was), and every other unscoped buffer as the last stretch leaves it. -/
theorem run_main : θ_run defs (onTc (τ := τ) (main (F := F))) (s₀ m ρ)
    (Pipeline.FramePost cfgs (dats m) 0 (Pipeline.afterTail₀ cfgs (dats m) 0 (atGrid₀ m) [hostOps1])) :=
  Pipeline.θ_run_frame_around cfgs (dats m) (0 : Fin 1) launch0 defs₀ Variants.none m ρ main
    (hbody := fun c => (body_everywhere m c).loose) (hshare := fun c => (dats m 0 c).share_full fun _ => rfl)
    (howed := fun _ _ => rfl) (V₀ := atGrid₀ m) (opss := [hostOps1]) (hsub := last_sub) (hfresh := last_fresh) (hkeep := last_keeps)
    (hmain := main_split m Variants.none) (hA := arrays_eq m) (hΦ := fun _ _ => rfl)

/-- The six argument arrays end as launched: the weight is an input array of the grid, which writes no input back;
    the other five are touched by no stretch. Read off any final state the run allows. -/
theorem args_kept_of (r : PUnit × MemSt nD τ sig (Elt F))
    (h : Pipeline.FramePost cfgs (dats m) 0 (Pipeline.afterTail₀ cfgs (dats m) 0 (atGrid₀ m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
    ⟨((h c).2 main_arg0 (Pipeline.mem_restRefs_of main_arg0 (by decide) (by decide))).trans
        ((atEnd_of_not_written m (dats m) c main_arg0 (by decide) (by not_written)).trans (atGrid_arg0 m c)),
     ((h c).1 1).trans (((dats m 0 c).arrAt_in 1 rfl _).trans ((arrays_eq m c 1).trans (atGrid_arg1 m c))),
     ((h c).2 main_arg2 (Pipeline.mem_restRefs_of main_arg2 (by decide) (by decide))).trans
        ((atEnd_of_not_written m (dats m) c main_arg2 (by decide) (by not_written)).trans (atGrid_arg2 m c)),
     ((h c).2 main_arg3 (Pipeline.mem_restRefs_of main_arg3 (by decide) (by decide))).trans
        ((atEnd_of_not_written m (dats m) c main_arg3 (by decide) (by not_written)).trans (atGrid_arg3 m c)),
     ((h c).2 main_arg4 (Pipeline.mem_restRefs_of main_arg4 (by decide) (by decide))).trans
        ((atEnd_of_not_written m (dats m) c main_arg4 (by decide) (by not_written)).trans (atGrid_arg4 m c)),
     ((h c).2 main_arg5 (Pipeline.mem_restRefs_of main_arg5 (by decide) (by decide))).trans
        ((atEnd_of_not_written m (dats m) c main_arg5 (by decide) (by not_written)).trans (atGrid_arg5 m c))⟩

/-- Every weakly fair execution of @main terminates, faults nowhere, and leaves the six argument arrays as launched. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_kept_of m r h c) (run_main m ρ)

end Cert.Kernel.TileRun

end
-- ==== Proof.KernelIdealRun.lean ====
/-
  The run of `KernelIdeal`'s @main, at any reading of the floats.

  @main is three stretches: the host operations that build the three stacked feature arrays and reshape the bias to a
  row, one grid of 256 tiles, and the final transposition. A tile is 256 consecutive vertices: the grid point `t`
  is handed rows `256·t … 256·t + 255` of the stacked features (all three terms), the whole weight and the bias row
  (both fetched once, at the first point), and writes rows `256·t … 256·t + 255` of the `[65536, 16, 32]` result.
  The body reads its four buffers through rectangles that lie inside them and overwrites the whole output tile with
  one store, so what the output buffer holds after the body is that store's value, a function of the three input
  tiles alone (`tileOut`). Nothing the body does depends on the point, no buffer is shared between windows, and
  no host operation writes an argument array: every weakly fair execution ends, faults nowhere, leaves the six
  arguments as launched, and leaves the result array at the tiles the points wrote, transposed by the last line.
-/
import proofs.«168547_j86663850098736_2_alg».proof.Proof.Gen.KernelIdeal.Launch
import proofs.«168547_j86663850098736_2_alg».proof.Proof.Gen.KernelIdeal.Skeleton
import proofs.«168547_j86663850098736_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.TileRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the grid starts -/

/-- Every buffer of core `c` after the host operations that precede the grid, from the launch contents `m`. -/
abbrev atGrid₀ (c : Dev nD) : Valuation τ sig (Elt F) := StableHlo.after (List.flatten [hostOps0]) (fun b => m (c, b))
/-- The same, read at one of the core's own references. -/
abbrev atGrid (c : Dev nD) (b : Ref sig .tc) : Buf (Elt F) ((c : Thread nD τ).loc b) := atGrid₀ m c (Proc.devRef .tc b)

/-- No host operation allocates a buffer. -/
theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- @main is the first stretch, the grid, and the last stretch, in that order. -/
theorem main_split (𝒱₀ : Variants) : Pipeline.HMainK (Ix := Unit) (Name := ℕ) (U := UR sig nD τ) (Lvl := ℕ) cfgs 0 defs₀ 𝒱₀ m (main (F := F)) (atGrid m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The last stretch touches only unscoped buffers of the core, -/
theorem last_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem last_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp after_fresh) op hop
/-- and writes none of the four arrays the grid works on (it writes the transposed result only). -/
theorem last_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.unary_writes, Finset.mem_singleton] <;> exact StableHlo.devRef_ne_of_ne (by decide)

/-- Each operation of a stretch writes its own result buffer, which is not the reference in question. -/
local macro "not_written" : tactic => `(tactic| (
  simp only [hostOps0, hostOps1, List.flatten_cons, List.flatten_nil, List.append_nil, List.cons_append,
    List.nil_append, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

/-- A reference no operation of the first stretch writes is found by the grid as launched. -/
theorem atGrid_of_not_written (c : Dev nD) (b : Ref sig .tc)
    (h : (List.flatten [(hostOps0 : List (HloOp τ sig (Elt F)))]).Forall fun op => Proc.devRef .tc b ∉ op.writes) :
    atGrid m c b = m ((c : Thread nD τ).loc b) :=
  StableHlo.after_of_forall_not_mem (b := Proc.devRef .tc b) _ _ (List.forall_iff_forall_mem.mp h)

theorem atGrid_arg0 (c : Dev nD) : atGrid m c main_arg0 = m ((c : Thread nD τ).loc main_arg0) :=
  atGrid_of_not_written m c main_arg0 (by not_written)
theorem atGrid_arg1 (c : Dev nD) : atGrid m c main_arg1 = m ((c : Thread nD τ).loc main_arg1) :=
  atGrid_of_not_written m c main_arg1 (by not_written)
theorem atGrid_arg2 (c : Dev nD) : atGrid m c main_arg2 = m ((c : Thread nD τ).loc main_arg2) :=
  atGrid_of_not_written m c main_arg2 (by not_written)
theorem atGrid_arg3 (c : Dev nD) : atGrid m c main_arg3 = m ((c : Thread nD τ).loc main_arg3) :=
  atGrid_of_not_written m c main_arg3 (by not_written)
theorem atGrid_arg4 (c : Dev nD) : atGrid m c main_arg4 = m ((c : Thread nD τ).loc main_arg4) :=
  atGrid_of_not_written m c main_arg4 (by not_written)
theorem atGrid_arg5 (c : Dev nD) : atGrid m c main_arg5 = m ((c : Thread nD τ).loc main_arg5) :=
  atGrid_of_not_written m c main_arg5 (by not_written)

/-- A reference that is none of the grid's four arrays and that the last stretch does not write ends as the grid
    found it. -/
theorem atEnd_of_not_written (dats : (p : Fin 1) → (c : Dev nD) → Dat τ (Elt F) Unit ℕ (UR sig nD τ) ℕ (cfgs p) c) (c : Dev nD)
    (b : Ref sig .tc) (hb : ∀ w, Pipeline.arrRef spec0 w ≠ b)
    (h : (List.flatten [(hostOps1 : List (HloOp τ sig (Elt F)))]).Forall fun op => Proc.devRef .tc b ∉ op.writes) :
    Pipeline.afterTail₀ cfgs dats 0 (atGrid₀ m) [hostOps1] c b = atGrid m c b := by
  unfold Pipeline.afterTail₀
  rw [StableHlo.after_of_forall_not_mem (b := Proc.devRef .tc b) _ _ (List.forall_iff_forall_mem.mp h),
    Pipeline.withArrays_of_ne _ c (atGrid₀ m c) _ b hb]

/-! ## The tiles -/

/-- Window `w`'s tile at point `t`, read off its array as the grid finds it. -/
def tileOf (c : Dev nD) (w : Fin cfg0.W) (t : Fin cfg0.N) : ((cfg0.win w).xblock (cfg0.grid.coords t)).Idx → Elt F (cfg0.win w).elt :=
  ((cfg0.win w).blk t).view.read (Elt F) (atGrid m c (Pipeline.arrRef spec0 w))

/-- An input window's current buffer holds its tile at every point — at a point that does not fetch it, because its
    tile index has not moved since the point that did — whenever the body leaves input buffers as it found them. -/
theorem input0_held {c : Dev nD} (dat : Dat τ (Elt F) Unit ℕ (UR sig nD τ) ℕ cfg0 c) (hA : dat.A 0 = atGrid m c (Pipeline.arrRef spec0 0))
    (hafter : ∀ t, dat.after 0 t = tileOf m c 0 t) (t : Fin cfg0.N) (d) : dat.before 0 t d = tileOf m c 0 t :=
  (dat.before_in_eq_fetched 0 rfl (fun _ => rfl) (fun _ _ _ => rfl) (fun t => by rw [hafter]; unfold Dat.blockOf tileOf; rw [hA]; try rfl) t d).trans
    (by unfold Dat.fetched Dat.blockOf tileOf; rw [hA]; try rfl)
theorem input1_held {c : Dev nD} (dat : Dat τ (Elt F) Unit ℕ (UR sig nD τ) ℕ cfg0 c) (hA : dat.A 1 = atGrid m c (Pipeline.arrRef spec0 1))
    (hafter : ∀ t, dat.after 1 t = tileOf m c 1 t) (t : Fin cfg0.N) (d) : dat.before 1 t d = tileOf m c 1 t :=
  (dat.before_in_eq_fetched 1 rfl (fun _ => rfl) (fun _ _ _ => rfl) (fun t => by rw [hafter]; unfold Dat.blockOf tileOf; rw [hA]; try rfl) t d).trans
    (by unfold Dat.fetched Dat.blockOf tileOf; rw [hA]; try rfl)
theorem input2_held {c : Dev nD} (dat : Dat τ (Elt F) Unit ℕ (UR sig nD τ) ℕ cfg0 c) (hA : dat.A 2 = atGrid m c (Pipeline.arrRef spec0 2))
    (hafter : ∀ t, dat.after 2 t = tileOf m c 2 t) (t : Fin cfg0.N) (d) : dat.before 2 t d = tileOf m c 2 t :=
  (dat.before_in_eq_fetched 2 rfl (fun _ => rfl) (fun _ _ _ => rfl) (fun t => by rw [hafter]; unfold Dat.blockOf tileOf; rw [hA]; try rfl) t d).trans
    (by unfold Dat.fetched Dat.blockOf tileOf; rw [hA]; try rfl)

/-! ## What the body reads and writes -/

/-- The three slabs of the feature tile (one per polynomial term), the whole weight, the bias row, the whole output tile. -/
abbrev slab0 : Rect S3x256x32x16 := Rect.unit (s := S3x256x32x16) ![0, 0, 0, 0] S1x256x32x16.size inb_S3x256x32x16_S1x256x32x16_0_0_0_0
abbrev slab1 : Rect S3x256x32x16 := Rect.unit (s := S3x256x32x16) ![1, 0, 0, 0] S1x256x32x16.size inb_S3x256x32x16_S1x256x32x16_1_0_0_0
abbrev slab2 : Rect S3x256x32x16 := Rect.unit (s := S3x256x32x16) ![2, 0, 0, 0] S1x256x32x16.size inb_S3x256x32x16_S1x256x32x16_2_0_0_0
abbrev allW : Rect S32x3x32 := Rect.unit (s := S32x3x32) ![0, 0, 0] S32x3x32.size inb_S32x3x32_S32x3x32_0_0_0
abbrev allB : Rect S1x32 := Rect.unit (s := S1x32) ![0, 0] S1x32.size inb_S1x32_S1x32_0_0
abbrev allOut : Rect S256x16x32 := Rect.unit (s := S256x16x32) ![0, 0, 0] S256x16x32.size inb_S256x16x32_S256x16x32_0_0_0

/-- The output buffer after the body: its one store, which covers the buffer, over what the body loaded. -/
def tileOut (x : Vec F S3x256x32x16 .f32) (w : Vec F S32x3x32 .f32) (b : Vec F S1x32 .f32) : Vec F S256x16x32 .f32 :=
  View.canon [⟨allOut, k0_pay1 (k0_pay2 (View.ld w allW) (View.ld x slab0) (View.ld x slab1) (View.ld x slab2)) (k0_pay3 (View.ld b allB))⟩]

theorem store_covers (p0 : Vec F S256x16x32 .f32) (y : S256x16x32.Idx) :
    ∃ pc ∈ ([⟨allOut, p0⟩] : List (View.Piece (Elt F) S256x16x32 .f32)), y ∈ pc.1.set :=
  View.cover_of_tiled [⟨allOut, p0⟩] S256x16x32.size (by rfl) y

set_option maxHeartbeats 1000000 in
/-- The body on whole buffers — the three inputs at contents `x`, `w`, `b`, the output at anything — runs to its
    end, leaves the inputs as they were and the output at `tileOut x w b`. -/
theorem body_runs (c : Dev nD) (E : Set ℕ) (i : grid0.Coords)
    (arg1 : Memref sig .tc .vmem S3x256x32x16 .f32) (harg1 : arg1.IsWhole) (arg2 : Memref sig .tc .vmem S32x3x32 .f32) (harg2 : arg2.IsWhole)
    (arg3 : Memref sig .tc .vmem S1x32 .f32) (harg3 : arg3.IsWhole) (arg4 : Memref sig .tc .vmem S256x16x32 .f32) (harg4 : arg4.IsWhole)
    (x : Vec F S3x256x32x16 .f32) (w : Vec F S32x3x32 .f32) (b : Vec F S1x32 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (tileOut x w b)) -∗ K ⟨⟩))
      ⊢ wp frame (wpE (defs₀ (F := F)) Variants.none c none) E (cc0__combine_kernel i arg1 harg1 arg2 harg2 arg3 harg3 arg4 harg4) K := by
  simp only [cc0__combine_kernel_eq_skeleton]; unfold cc0__combine_kernel_skel
  simp only [k0_part1_eq_skeleton]; unfold k0_part1_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

/-! ## The grid's bookkeeping -/

/-- Per core: the four arrays as the grid finds them; after the body at point `t` each input buffer at its tile and the
    output buffer at `tileOut` of the three input tiles; nothing else of the core is touched. -/
def dats (_ : Fin 1) (c : Dev nD) : Dat τ (Elt F) Unit ℕ (UR sig nD τ) ℕ cfg0 c where
  A w := atGrid m c (Pipeline.arrRef spec0 w)
  after w t := match w with
    | ⟨0, _⟩ => tileOf m c 0 t
    | ⟨1, _⟩ => tileOf m c 1 t
    | ⟨2, _⟩ => tileOf m c 2 t
    | ⟨3, _⟩ => tileOut (tileOf m c 0 t) (tileOf m c 1 t) (tileOf m c 2 t)
  Φ _ := Pipeline.ΦA spec0 c
  q _ := fullShare
  owed _ := 0

theorem arrays_eq (c : Dev nD) (w : Fin cfg0.W) : (dats m 0 c).A w = atGrid m c (Pipeline.arrRef spec0 w) := by
  dsimp only [dats]

theorem after_in0 (c : Dev nD) (t : Fin cfg0.N) : (dats m 0 c).after 0 t = tileOf m c 0 t := by dsimp only [dats]
theorem after_in1 (c : Dev nD) (t : Fin cfg0.N) : (dats m 0 c).after 1 t = tileOf m c 1 t := by dsimp only [dats]
theorem after_in2 (c : Dev nD) (t : Fin cfg0.N) : (dats m 0 c).after 2 t = tileOf m c 2 t := by dsimp only [dats]
theorem after_out (c : Dev nD) (t : Fin cfg0.N) :
    (dats m 0 c).after 3 t = tileOut (tileOf m c 0 t) (tileOf m c 1 t) (tileOf m c 2 t) := by dsimp only [dats]

theorem before_in0 (c : Dev nD) (t : Fin cfg0.N) (d) : (dats m 0 c).before 0 t d = tileOf m c 0 t :=
  input0_held m (dats m 0 c) (arrays_eq m c 0) (after_in0 m c) t d
theorem before_in1 (c : Dev nD) (t : Fin cfg0.N) (d) : (dats m 0 c).before 1 t d = tileOf m c 1 t :=
  input1_held m (dats m 0 c) (arrays_eq m c 1) (after_in1 m c) t d
theorem before_in2 (c : Dev nD) (t : Fin cfg0.N) (d) : (dats m 0 c).before 2 t d = tileOf m c 2 t :=
  input2_held m (dats m 0 c) (arrays_eq m c 2) (after_in2 m c) t d

/-- What the body is handed at point `t`, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem body_at_point (c : Dev nD) (t : Fin cfg0.N) :
    handed m c t ⊢ wp frame (wpE (defs₀ (F := F)) Variants.none c none) Set.univ (bodyAt0 t) (fun _ => returned m c t) := by
  unfold handed returned bodyAt0
  simp only [before_in0, before_in1, before_in2]
  rw [show (dats m 0 c).Φ t.succ = (dats m 0 c).Φ t.castSucc from rfl,
    show (dats m 0 c).owesAt () t.succ = (dats m 0 c).owesAt () t.castSucc from rfl,
    after_in0, after_in1, after_in2, after_out]
  iintro ⟨HΦ, Ho, ⟨%d0, H0⟩, ⟨%d1, H1⟩, ⟨%d2, H2⟩, ⟨%d3, H3⟩⟩
  iapply (body_runs c Set.univ (grid0.coords t) _ _ _ _ _ _ _ _ (tileOf m c 0 t) (tileOf m c 1 t) (tileOf m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_everywhere (c : Dev nD) : BodyObligation (dats (F := F) m 0 c) (defs₀ (F := F)) Variants.none () Set.univ := fun t => by
  rw [bigSep_W0, bigSep_W0]
  exact body_at_point m c t

/-! ## The run -/

set_option backward.isDefEq.respectTransparency.types false in
/-- Every weakly fair execution of @main terminates; the grid's four arrays end at what the points wrote back (an
    input array as it was), and every other unscoped buffer as the last stretch leaves it. -/
theorem run_main : θ_run defs (onTc (τ := τ) (main (F := F))) (s₀ m ρ)
    (Pipeline.FramePost cfgs (dats m) 0 (Pipeline.afterTail₀ cfgs (dats m) 0 (atGrid₀ m) [hostOps1])) :=
  Pipeline.θ_run_frame_around cfgs (dats m) (0 : Fin 1) launch0 defs₀ Variants.none m ρ main
    (hbody := fun c => (body_everywhere m c).loose) (hshare := fun c => (dats m 0 c).share_full fun _ => rfl)
    (howed := fun _ _ => rfl) (V₀ := atGrid₀ m) (opss := [hostOps1]) (hsub := last_sub) (hfresh := last_fresh) (hkeep := last_keeps)
    (hmain := main_split m Variants.none) (hA := arrays_eq m) (hΦ := fun _ _ => rfl)

/-- The six argument arrays end as launched: the weight is an input array of the grid, which writes no input back;
    the other five are touched by no stretch. Read off any final state the run allows. -/
theorem args_kept_of (r : PUnit × MemSt nD τ sig (Elt F))
    (h : Pipeline.FramePost cfgs (dats m) 0 (Pipeline.afterTail₀ cfgs (dats m) 0 (atGrid₀ m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
    ⟨((h c).2 main_arg0 (Pipeline.mem_restRefs_of main_arg0 (by decide) (by decide))).trans
        ((atEnd_of_not_written m (dats m) c main_arg0 (by decide) (by not_written)).trans (atGrid_arg0 m c)),
     ((h c).1 1).trans (((dats m 0 c).arrAt_in 1 rfl _).trans ((arrays_eq m c 1).trans (atGrid_arg1 m c))),
     ((h c).2 main_arg2 (Pipeline.mem_restRefs_of main_arg2 (by decide) (by decide))).trans
        ((atEnd_of_not_written m (dats m) c main_arg2 (by decide) (by not_written)).trans (atGrid_arg2 m c)),
     ((h c).2 main_arg3 (Pipeline.mem_restRefs_of main_arg3 (by decide) (by decide))).trans
        ((atEnd_of_not_written m (dats m) c main_arg3 (by decide) (by not_written)).trans (atGrid_arg3 m c)),
     ((h c).2 main_arg4 (Pipeline.mem_restRefs_of main_arg4 (by decide) (by decide))).trans
        ((atEnd_of_not_written m (dats m) c main_arg4 (by decide) (by not_written)).trans (atGrid_arg4 m c)),
     ((h c).2 main_arg5 (Pipeline.mem_restRefs_of main_arg5 (by decide) (by decide))).trans
        ((atEnd_of_not_written m (dats m) c main_arg5 (by decide) (by not_written)).trans (atGrid_arg5 m c))⟩

/-- Every weakly fair execution of @main terminates, faults nowhere, and leaves the six argument arrays as launched. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_kept_of m r h c) (run_main m ρ)

end Cert.KernelIdeal.TileRun

end
-- ==== Proof.LibRowBlockDot.lean ====
/-
  A matrix product taken a block of rows at a time.

  For a two-axis contraction `[M, K] × [K, N] → [M, N]` whose dimension numbers contract the left operand's second
  axis with the right operand's first and keep the other two in order (`PlainDot`), the sum over the contraction
  index at output `(r, c)` is `∑ k : Fin K, x (r, k) · w (k, c)` (`sum_contr_eq`). Hence the product of a block
  of rows of `X` with `W`, read at a row of the block, is the whole product `X · W` read at that row of the array
  (`rowblock_sum`): the two sums have the same terms. Only the commutative monoid of the extended reals' addition
  is used; nothing here needs a finite entry.
-/
import Idealize.ShloMosaic.Lib.ValueIdx
import Idealize.ShloMosaic.PureOps.Ideal.Laws

namespace Idealize.ShloMosaic.RowBlockDot

open Idealize.ShloMosaic Idealize.ShloMosaic.ValueIdx

/-- The dimension numbers of a plain matrix product: one contracted axis of extent `K`; the left operand's index at
    output `j` and contraction index `q` is `(j 0, q)`, the right operand's `(q, j 1)`. -/
structure PlainDot {M K N : Nat} (d : DotDims (⟨2, ![M, K]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {M K N : Nat}

/-- The contraction's sum at output `j` is the sum over `k : Fin K` of `x (j 0, k) · w (k, j 1)`. -/
theorem sum_contr_eq (d : DotDims (⟨2, ![M, K]⟩ : Shape) (⟨2, ![K, N]⟩ : Shape) (⟨2, ![M, N]⟩ : Shape)) (h : PlainDot d)
    (x : (⟨2, ![M, K]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 (j 0) k) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- A block of `Mb` rows times `W`, at row `y 0` of the block, is `X · W` at the array's row `i 0`, when the block's
    row `y 0` is the array's row `i 0` (`hx`) and the two right operands agree on column `y 1` / `i 1` (`hw`). -/
theorem rowblock_sum {Mb : Nat}
    (dW : DotDims (⟨2, ![M, K]⟩ : Shape) (⟨2, ![K, N]⟩ : Shape) (⟨2, ![M, N]⟩ : Shape)) (hW : PlainDot dW)
    (dB : DotDims (⟨2, ![Mb, K]⟩ : Shape) (⟨2, ![K, N]⟩ : Shape) (⟨2, ![Mb, N]⟩ : Shape)) (hB : PlainDot dB)
    (X : (⟨2, ![M, K]⟩ : Shape).Idx → EReal) (W : (⟨2, ![K, N]⟩ : Shape).Idx → EReal)
    (xb : (⟨2, ![Mb, K]⟩ : Shape).Idx → EReal) (wb : (⟨2, ![K, N]⟩ : Shape).Idx → EReal)
    (y : (⟨2, ![Mb, N]⟩ : Shape).Idx) (i : (⟨2, ![M, N]⟩ : Shape).Idx)
    (hx : ∀ k : Fin K, xb (ix2 (y 0) k) = X (ix2 (i 0) k))
    (hw : ∀ k : Fin K, wb (ix2 k (y 1)) = W (ix2 k (i 1))) :
    ∑ q : dB.contr.Idx, xb (dB.lhsIdx y q) * wb (dB.rhsIdx y q) = ∑ q : dW.contr.Idx, X (dW.lhsIdx i q) * W (dW.rhsIdx i q) := by
  rw [sum_contr_eq dB hB, sum_contr_eq dW hW]
  exact Finset.sum_congr rfl fun k _ => congrArg₂ (· * ·) (hx k) (hw k)

end Idealize.ShloMosaic.RowBlockDot
-- ==== Proof.LibColumnForms.lean ====
/-
  Reading a block of rows at `(p, c)`: the keepdims column forms, a lane sum, and a plain matrix product.

  * a vector `[a]` cast to a column `[a, 1]` reads at `(p, 0)` the vector at `p`;
  * a column `[a, 1]` broadcast to `[a, b]` reads at `(p, c)` the column at `(p, 0)`;
  * the sum of an `[a, b]` array over its second axis, at `p`, is the sum over `k` of the array at `(p, k)`;
  * a matrix product `[a, K] × [K, b]` into a zero accumulator, at `(p, c)`, is the sum over `k` of
    `lhs (p, k) · rhs (k, c)`, for dimension numbers that contract the left operand's second axis with the right
    operand's first.
  All at the exact instance, where every float is an extended real.
-/
import Idealize.ShloMosaic.Lib.ValueIdx
import Idealize.ShloMosaic.Lib.Pipeline.Value
import Idealize.ShloMosaic.PureOps.Ideal.Laws
import proofs.«168547_j86663850098736_2_alg».proof.Proof.LibRowBlockDot

noncomputable section

namespace Idealize.ShloMosaic.ColumnForms

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `p` with coordinate `k` put back on the second axis is `(p, k)`. -/
theorem lift_axis1 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum of an `[a, b]` array over its second axis, read at `p`: the sum over `k` of the array at `(p, k)`. -/
theorem laneSum_apply {a b : ℕ} (v : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (lift_axis1 h p k)

/-- The same, with the accumulator's side condition spelt through the sum's neutral word. -/
theorem laneSum_apply' {a b : ℕ} (v : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (lift_axis1 h p k)

/-- A plain matrix product into the zero accumulator, read at `(p, c)`. -/
theorem matmul_zero_apply {a K b : ℕ} {φ₁ φ₂ : FTy}
    (d : DotDims (⟨2, ![a, K]⟩ : Shape) (⟨2, ![K, b]⟩ : Shape) (⟨2, ![a, b]⟩ : Shape)) (hd : RowBlockDot.PlainDot d)
    (prec : Option ContractPrecision) (lhs : FVec Ideal ⟨2, ![a, K]⟩ φ₁) (rhs : FVec Ideal ⟨2, ![K, b]⟩ φ₂) (p : Fin a) (c : Fin b) :
    matmul d prec lhs rhs (constant ⟨2, ![a, b]⟩ .f32 0x00000000#32) (ix2 p c) = ∑ k : Fin K, lhs (ix2 p k) * rhs (ix2 k c) :=
  (Ideal.matmul_constant_zero_apply d prec lhs rhs (ix2 p c)).trans (RowBlockDot.sum_contr_eq d hd lhs rhs (ix2 p c))

end Idealize.ShloMosaic.ColumnForms

end
-- ==== Proof.Spec.lean ====
/-
  The graph-convolution read-out this certificate is about, as one function of three arrays.

  Three feature arrays are stacked along a leading axis: `X (k, v, f, b)` is the `k`-th polynomial term at vertex `v`,
  input feature `f`, batch entry `b`. The result mixes the terms and the input features with a weight `W (f, k, o)` and
  adds a bias `β o`:

      out (b, o, v) = ∑ k, ∑ f, X (k, v, f, b) · W (f, k, o) + β o.

  `combine` is that function over the whole arrays; `tile` is the same sum over one tile of 256 consecutive vertices,
  laid out vertex-major as `(p, b, o)`, the bias given as a one-row matrix. Both are plain sums of products of
  extended reals: addition there is commutative and associative, so the order in which a program adds the terms
  does not matter, and no entry has to be finite.
-/
import Idealize.ShloMosaic.Lib.ValueIdx
import Idealize.ShloMosaic.PureOps.Ideal

noncomputable section

namespace Cert.ChebCombine

open Idealize.ShloMosaic Idealize.ShloMosaic.ValueIdx

/-- The stacked terms `[3, 65536, 32, 16]`, the weight `[32, 3, 32]`, the bias `[32]`, the result `[16, 32, 65536]`. -/
abbrev SX : Shape := ⟨4, ![3, 65536, 32, 16]⟩
abbrev SW : Shape := ⟨3, ![32, 3, 32]⟩
abbrev SB : Shape := ⟨1, ![32]⟩
abbrev SO : Shape := ⟨3, ![16, 32, 65536]⟩
/-- One tile of 256 vertices of the stacked terms, the bias as a row, and the tile's result `[256, 16, 32]`. -/
abbrev SXt : Shape := ⟨4, ![3, 256, 32, 16]⟩
abbrev SBr : Shape := ⟨2, ![1, 32]⟩
abbrev SOt : Shape := ⟨3, ![256, 16, 32]⟩

/-- `out (b, o, v) = ∑ k, ∑ f, X (k, v, f, b) · W (f, k, o) + β o`. -/
def combine (X : SX.Idx → EReal) (W : SW.Idx → EReal) (β : SB.Idx → EReal) : SO.Idx → EReal :=
  fun i => (∑ k : Fin 3, ∑ f : Fin 32, X (ix4 k (i 2) f (i 0)) * W (ix3 f k (i 1))) + β (ix1 (i 1))

/-- The same over one tile: `out (p, b, o) = ∑ k, ∑ f, X (k, p, f, b) · W (f, k, o) + β (0, o)`. -/
def tile (X : SXt.Idx → EReal) (W : SW.Idx → EReal) (β : SBr.Idx → EReal) : SOt.Idx → EReal :=
  fun j => (∑ k : Fin 3, ∑ f : Fin 32, X (ix4 k (j 0) f (j 1)) * W (ix3 f k (j 2))) + β (ix2 (0 : Fin 1) (j 2))

end Cert.ChebCombine

end
-- ==== Proof.TilePayload.lean ====
/-
  The kernel body's arithmetic, read at one index of the tile it stores.

  The body holds three slabs of shape [1, 256, 32, 16] (term k = 0, 1, 2 of the stacked features: vertex p, input
  feature f, batch entry b), the weight [32, 3, 32] and the bias row [1, 32]. For each term k it
    * drops the slab's unit axis, swaps the feature and batch axes and merges vertex and batch into one row axis:
      a matrix [4096, 32] whose row p * 16 + b, column f holds slab k at (0, p, f, b);
    * cuts the weight at term k and drops the unit axis: a matrix [32, 32] whose entry (f, c) is weight (f, k, c);
    * multiplies the two into a zero accumulator, entry (p * 16 + b, c) being ∑ f, slab k (0, p, f, b) · weight (f, k, c),
      and splits the row axis back into (p, b).
  The three products are added, in order, to a zero array, and the bias row is added to every (p, b). Rounding to the
  narrower float format is the identity on extended reals, zero is neutral for their addition, and a sum over the
  three terms is the three summands added in order; so at (p, b, c) the stored value is

      ∑ k, ∑ f, slab k (0, p, f, b) · weight (f, k, c) + bias (0, c),

  which is tile of the specification when the three slabs are the three terms of the tile's stacked array.
  Every step moves an entry or regroups a sum: no product is distributed and no entry has to be finite.
-/
import proofs.«168547_j86663850098736_2_alg».proof.Proof.Gen.KernelIdeal.Skeleton
import proofs.«168547_j86663850098736_2_alg».proof.Proof.LibColumnForms
import proofs.«168547_j86663850098736_2_alg».proof.Proof.Spec
import Idealize.ShloMosaic.Lib.ValueLayout

noncomputable section

namespace Cert.KernelIdeal.TileValue

open Cert.KernelIdeal Cert.KernelIdeal.Gen Idealize.ShloMosaic Idealize.ShloMosaic.ValueIdx

/-- The body's matrix product contracts the left operand's second axis with the right operand's first. -/
theorem plainDot : RowBlockDot.PlainDot dot_S4096x32_S32x32_S4096x32_1_0_0_1_n_n where
  hr := rfl
  hs := rfl
  l0 := fun j q => by
    unfold DotDims.lhsIdx
    rw [dif_neg (show ¬(0 : Fin S4096x32.rank) ∈ dot_S4096x32_S32x32_S4096x32_1_0_0_1_n_n.lhsBatch by decide),
      dif_pos (show (0 : Fin S4096x32.rank) ∈ dot_S4096x32_S32x32_S4096x32_1_0_0_1_n_n.lhsNonContracting by decide)]
    rfl
  l1 := fun j q => dot_S4096x32_S32x32_S4096x32_1_0_0_1_n_n.lhsIdx_val_of_single rfl j q
  r0 := fun j q => dot_S4096x32_S32x32_S4096x32_1_0_0_1_n_n.rhsIdx_val_of_single rfl j q
  r1 := fun j q => by
    unfold DotDims.rhsIdx
    rw [dif_neg (show ¬(1 : Fin S32x32.rank) ∈ dot_S4096x32_S32x32_S4096x32_1_0_0_1_n_n.rhsBatch by decide),
      dif_pos (show (1 : Fin S32x32.rank) ∈ dot_S4096x32_S32x32_S4096x32_1_0_0_1_n_n.rhsNonContracting by decide)]
    rfl

/-- Row p * 16 + b of the 4096-row matrix: vertex p of the tile, batch entry b. -/
def row (p : Fin 256) (b : Fin 16) : Fin 4096 := ⟨p.val * 16 + b.val, by omega⟩

/-- The left operand of the product, at row p * 16 + b and column f, is the loaded slab at vertex p, input feature f,
    batch entry b: dropping the slab's unit axis, swapping the feature and batch axes, and merging vertex and batch into
    one row axis only move the entry; rounding to the narrower format is the identity on extended reals. -/
theorem lhs_apply (x : Vec Ideal S1x256x32x16 .f32) (h1 : S1x256x32x16.ShapeCasts S256x32x16)
    (h2 : S256x32x16.Transposes [0, 2, 1] S256x16x32) (h3 : S256x16x32.ShapeCasts S4096x32)
    (hlt : FTy.bits .bf16 < FTy.bits .f32) (p : Fin 256) (b : Fin 16) (f : Fin 32) :
    (truncf .bf16 (shapeCast S4096x32 (transpose S256x16x32 [0, 2, 1] (shapeCast S256x32x16 x h1) h2) h3) hlt :
        FVec Ideal S4096x32 .bf16) (ix2 (row p b) f) = x (ix4 (0 : Fin 1) p f b) := by
  show shapeCast S4096x32 (transpose S256x16x32 [0, 2, 1] (shapeCast S256x32x16 x h1) h2) h3 (ix2 (row p b) f) = _
  refine (shapeCast_apply _ h3 (ix2 (row p b) f) (ix3 p b f) ?_).trans ?_
  · rw [Shape.rowMajor_val_three, Shape.rowMajor_val_two]
    show (p.val * 16 + b.val) * 32 + f.val = (p.val * 16 + b.val) * 32 + f.val
    rfl
  · refine (transpose_ix3_021_apply _ h2 p b f).trans ?_
    exact shapeCast_1abc_abc_apply x h1 p f b

/-- The right operand of the k-th product, at (f, c), is the weight at input feature f, term k, output feature c. -/
theorem rhs_apply (o : Nat) (w : Vec Ideal S32x3x32 .f32) (hs : S32x3x32.Slices ![0, o, 0] S32x1x32)
    (h4 : S32x1x32.ShapeCasts S32x32) (hlt : FTy.bits .bf16 < FTy.bits .f32) (k : Fin 3) (hk : k.val = o)
    (f c : Fin 32) :
    (truncf .bf16 (shapeCast S32x32 (extractStridedSlice S32x1x32 ![0, o, 0] w hs) h4) hlt :
        FVec Ideal S32x32 .bf16) (ix2 f c) = w (ix3 f k c) := by
  show shapeCast S32x32 (extractStridedSlice S32x1x32 ![0, o, 0] w hs) h4 (ix2 f c) = _
  refine (shapeCast_apply _ h4 (ix2 f c) (ix3 f (0 : Fin 1) c) ?_).trans ?_
  · rw [Shape.rowMajor_val_three, Shape.rowMajor_val_two]
    show (f.val * 1 + 0) * 32 + c.val = f.val * 32 + c.val
    omega
  · exact slice3_axis1_apply o w hs f (0 : Fin 1) c k (by show k.val = o + 0; omega)

/-- One term of the accumulation, at (p, b, c): the product of the rearranged slab with the k-th slice of the weight,
    split back into vertex and batch axes, is the sum over the input features f of slab (p, f, b) · weight (f, k, c). -/
theorem term_apply (o : Nat) (x : Vec Ideal S1x256x32x16 .f32) (w : Vec Ideal S32x3x32 .f32)
    (h1 : S1x256x32x16.ShapeCasts S256x32x16) (h2 : S256x32x16.Transposes [0, 2, 1] S256x16x32)
    (h3 : S256x16x32.ShapeCasts S4096x32) (hlt : FTy.bits .bf16 < FTy.bits .f32)
    (hs : S32x3x32.Slices ![0, o, 0] S32x1x32) (h4 : S32x1x32.ShapeCasts S32x32)
    (h5 : S4096x32.ShapeCasts S256x16x32) (k : Fin 3) (hk : k.val = o) (p : Fin 256) (b : Fin 16) (c : Fin 32) :
    shapeCast S256x16x32
        (matmul dot_S4096x32_S32x32_S4096x32_1_0_0_1_n_n none
          (truncf .bf16 (shapeCast S4096x32 (transpose S256x16x32 [0, 2, 1] (shapeCast S256x32x16 x h1) h2) h3) hlt :
            FVec Ideal S4096x32 .bf16)
          (truncf .bf16 (shapeCast S32x32 (extractStridedSlice S32x1x32 ![0, o, 0] w hs) h4) hlt :
            FVec Ideal S32x32 .bf16)
          (constant (F := Ideal) S4096x32 .f32 0x00000000#32)) h5 (ix3 p b c)
      = ∑ f : Fin 32, x (ix4 (0 : Fin 1) p f b) * w (ix3 f k c) := by
  refine (shapeCast_apply _ h5 (ix3 p b c) (ix2 (row p b) c) ?_).trans ?_
  · rw [Shape.rowMajor_val_three, Shape.rowMajor_val_two]
    show (p.val * 16 + b.val) * 32 + c.val = (p.val * 16 + b.val) * 32 + c.val
    rfl
  · refine (ColumnForms.matmul_zero_apply dot_S4096x32_S32x32_S4096x32_1_0_0_1_n_n plainDot none _ _ (row p b) c).trans ?_
    exact Finset.sum_congr rfl fun f _ =>
      congrArg₂ (· * ·) (lhs_apply x h1 h2 h3 hlt p b f) (rhs_apply o w hs h4 hlt k hk f c)

/-- The bias row, given a unit axis and spread over the tile, reads at (p, b, c) the bias of output feature c. -/
theorem bias_apply (bv : Vec Ideal S1x32 .f32) (h6 : S1x32.ShapeCasts S1x32) (h7 : S1x32.ShapeCasts S1x1x32)
    (h8 : S1x1x32.Broadcasts S256x16x32) (p : Fin 256) (b : Fin 16) (c : Fin 32) :
    broadcastTo S256x16x32 (shapeCast S1x1x32 (shapeCast S1x32 bv h6) h7) h8 (ix3 p b c) = bv (ix2 (0 : Fin 1) c) := by
  refine (broadcastTo_apply _ h8 (ix3 p b c) (ix3 (0 : Fin 1) (0 : Fin 1) c) fun a => ?_).trans ?_
  · match a with
    | ⟨0, _⟩ => rfl
    | ⟨1, _⟩ => rfl
    | ⟨2, _⟩ => rfl
  · rw [shapeCast_self]
    exact shapeCast_ab_1ab_apply bv h7 (0 : Fin 1) (0 : Fin 1) c

/-- The body's arithmetic at (p, b, c): starting from zero, the three terms are added in order and the bias row is
    added last; zero is neutral, so the value is the sum over the three terms and the input features plus the bias. -/
theorem payload_apply (w : Vec Ideal S32x3x32 .f32) (xa xb xc : Vec Ideal S1x256x32x16 .f32) (bv : Vec Ideal S1x32 .f32)
    (p : Fin 256) (b : Fin 16) (o : Fin 32) :
    Gen.k0_pay1 (F := Ideal) (Gen.k0_pay2 w xa xb xc) (Gen.k0_pay3 bv) (ix3 p b o)
      = (∑ k : Fin 3, ∑ f : Fin 32, (![xa, xb, xc] k) (ix4 (0 : Fin 1) p f b) * w (ix3 f k o))
        + bv (ix2 (0 : Fin 1) o) := by
  rw [Fin.sum_univ_three]
  unfold Gen.k0_pay1 Gen.k0_pay2 Gen.k0_pay3
  refine congrArg₂ (· + ·) (congrArg₂ (· + ·) (congrArg₂ (· + ·) ?_
    (term_apply 1 xb w _ _ _ _ _ _ _ 1 rfl p b o)) (term_apply 2 xc w _ _ _ _ _ _ _ 2 rfl p b o)) (bias_apply bv _ _ _ p b o)
  exact (congrArg₂ (· + ·) Ideal.ofBits_zero_f32
    (term_apply 0 xa w shapeCasts_S1x256x32x16_S256x32x16 transposes_S256x32x16_p0_2_1_S256x16x32
      shapeCasts_S256x16x32_S4096x32 bitsLt_bf16_f32 slices_S32x3x32_o0_0_0_S32x1x32 shapeCasts_S32x1x32_S32x32
      shapeCasts_S4096x32_S256x16x32 0 rfl p b o)).trans (zero_add _)

/-- The same with the three slabs given as one family indexed by the term. -/
theorem payload_apply_slab (w : Vec Ideal S32x3x32 .f32) (slab : Fin 3 → Vec Ideal S1x256x32x16 .f32)
    (bv : Vec Ideal S1x32 .f32) (p : Fin 256) (b : Fin 16) (o : Fin 32) :
    Gen.k0_pay1 (F := Ideal) (Gen.k0_pay2 w (slab 0) (slab 1) (slab 2)) (Gen.k0_pay3 bv) (ix3 p b o)
      = (∑ k : Fin 3, ∑ f : Fin 32, slab k (ix4 (0 : Fin 1) p f b) * w (ix3 f k o)) + bv (ix2 (0 : Fin 1) o) := by
  refine (payload_apply w (slab 0) (slab 1) (slab 2) bv p b o).trans ?_
  rw [Fin.sum_univ_three, Fin.sum_univ_three]
  rfl

/-- When slab k at (0, p, f, b) is the tile's stacked terms at (k, p, f, b), the value the body stores is tile. -/
theorem payload_eq_tile (X : Cert.ChebCombine.SXt.Idx → EReal) (w : Vec Ideal S32x3x32 .f32)
    (slab : Fin 3 → Vec Ideal S1x256x32x16 .f32) (bv : Vec Ideal S1x32 .f32)
    (hX : ∀ (k : Fin 3) (p : Fin 256) (f : Fin 32) (b : Fin 16), slab k (ix4 (0 : Fin 1) p f b) = X (ix4 k p f b)) :
    Gen.k0_pay1 (F := Ideal) (Gen.k0_pay2 w (slab 0) (slab 1) (slab 2)) (Gen.k0_pay3 bv)
      = Cert.ChebCombine.tile X w bv := by
  funext j
  obtain ⟨p, b, o, rfl⟩ : ∃ (p : Fin 256) (b : Fin 16) (o : Fin 32), j = ix3 p b o := ⟨j 0, j 1, j 2, eq_ix3 j⟩
  refine (payload_apply_slab w slab bv p b o).trans ?_
  show _ = (∑ k : Fin 3, ∑ f : Fin 32, X (ix4 k p f b) * w (ix3 f k o)) + bv (ix2 (0 : Fin 1) o)
  exact congrArg (· + bv (ix2 (0 : Fin 1) o)) (Finset.sum_congr rfl fun k _ =>
    Finset.sum_congr rfl fun f _ => congrArg (· * w (ix3 f k o)) (hX k p f b))

end Cert.KernelIdeal.TileValue

end
-- ==== Proof.TileOut.lean ====
/-
  The value the body stores is the read-out of its tile.

  The body loads the feature tile `[3, 256, 32, 16]` as three slabs, one per polynomial term: slab `k` at `(0, p, f, b)` is the
  tile at `(k, p, f, b)`. The weight and the bias row are loaded whole, and the one store covers the whole output tile.
  With the body's arithmetic read at an index (the sum over the three terms and the thirty-two input features, plus
  the bias), the output buffer after the body is `tile` of the three input tiles.
-/
import proofs.«168547_j86663850098736_2_alg».proof.Proof.KernelIdealRun
import proofs.«168547_j86663850098736_2_alg».proof.Proof.TilePayload
import proofs.«168547_j86663850098736_2_alg».proof.Proof.Spec
import Idealize.ShloMosaic.Lib.Pipeline.Value

noncomputable section

namespace Cert.KernelIdeal.ArrayValue

open Cert.KernelIdeal Cert.KernelIdeal.Gen Cert.KernelIdeal.TileRun Cert.ChebCombine
open Idealize.ShloMosaic Idealize.ShloMosaic.ValueIdx

theorem hz3 : (![0, 0, 0] : Fin 3 → Nat) = fun _ => 0 := funext fun a => by fin_cases a <;> rfl
theorem hz2 : (![0, 0] : Fin 2 → Nat) = fun _ => 0 := funext fun a => by fin_cases a <;> rfl

/-- Slab `k` of the feature tile, at `(0, p, f, b)`, is the tile at `(k, p, f, b)`. -/
theorem slab0_apply (x : Vec Ideal S3x256x32x16 .f32) (p : Fin 256) (f : Fin 32) (b : Fin 16) :
    View.ld x slab0 (ix4 (0 : Fin 1) p f b) = x (ix4 (0 : Fin 3) p f b) :=
  congrArg x (funext fun a => Fin.ext (by
    match a with
    | ⟨0, _⟩ => rfl
    | ⟨1, _⟩ => show 0 + 1 * p.val = p.val; omega
    | ⟨2, _⟩ => show 0 + 1 * f.val = f.val; omega
    | ⟨3, _⟩ => show 0 + 1 * b.val = b.val; omega))
theorem slab1_apply (x : Vec Ideal S3x256x32x16 .f32) (p : Fin 256) (f : Fin 32) (b : Fin 16) :
    View.ld x slab1 (ix4 (0 : Fin 1) p f b) = x (ix4 (1 : Fin 3) p f b) :=
  congrArg x (funext fun a => Fin.ext (by
    match a with
    | ⟨0, _⟩ => rfl
    | ⟨1, _⟩ => show 0 + 1 * p.val = p.val; omega
    | ⟨2, _⟩ => show 0 + 1 * f.val = f.val; omega
    | ⟨3, _⟩ => show 0 + 1 * b.val = b.val; omega))
theorem slab2_apply (x : Vec Ideal S3x256x32x16 .f32) (p : Fin 256) (f : Fin 32) (b : Fin 16) :
    View.ld x slab2 (ix4 (0 : Fin 1) p f b) = x (ix4 (2 : Fin 3) p f b) :=
  congrArg x (funext fun a => Fin.ext (by
    match a with
    | ⟨0, _⟩ => rfl
    | ⟨1, _⟩ => show 0 + 1 * p.val = p.val; omega
    | ⟨2, _⟩ => show 0 + 1 * f.val = f.val; omega
    | ⟨3, _⟩ => show 0 + 1 * b.val = b.val; omega))

/-- The output buffer after the body is `tile` of the three input tiles. -/
theorem tileOut_eq_tile (x : Vec Ideal S3x256x32x16 .f32) (w : Vec Ideal S32x3x32 .f32) (b : Vec Ideal S1x32 .f32) :
    tileOut (F := Ideal) x w b = tile x w b := by
  unfold tileOut
  rw [View.canon_unit_zero hz3]
  simp only [View.ld_unit_zero (S := S32x3x32) hz3, View.ld_unit_zero (S := S1x32) hz2]
  refine TileValue.payload_eq_tile x w ![View.ld x slab0, View.ld x slab1, View.ld x slab2] b fun k p f bb => ?_
  match k with
  | ⟨0, _⟩ => exact slab0_apply x p f bb
  | ⟨1, _⟩ => exact slab1_apply x p f bb
  | ⟨2, _⟩ => exact slab2_apply x p f bb

end Cert.KernelIdeal.ArrayValue

end
-- ==== Proof.KernelValue.lean ====
/-
  What the idealized kernel leaves in its result array, as one function of its arguments.

  The grid's output array `[65536, 16, 32]` is written tile by tile: the point `t` writes rows `256·t … 256·t + 255`,
  and it writes there the read-out `tile` of ITS rows of the stacked terms, the whole weight and the bias row. A row
  `v` of the array is row `v % 256` of tile `v / 256`, and the stacked terms' row `v` is row `v % 256` of the same
  tile of the input, so every tile is the restriction of ONE function of the whole arrays (`byVertex`), and the
  256 tiles cover the array: the array ends at `byVertex`. The last host line transposes `(v, b, o)` to `(b, o, v)`,
  which turns `byVertex` into the read-out `combine`; the bias row is the bias vector reshaped, and the stacked terms
  are what the first host stretch computes from the arguments — the same operations, in the same order, as the
  reference program's first forty-four lines.
-/
import proofs.«168547_j86663850098736_2_alg».proof.Proof.KernelIdealRun
import proofs.«168547_j86663850098736_2_alg».proof.Proof.TileOut
import proofs.«168547_j86663850098736_2_alg».proof.Proof.Spec
import proofs.«168547_j86663850098736_2_alg».proof.Proof.Gen.ReferenceIdeal.Read
import Idealize.ShloMosaic.Lib.Pipeline.Value
import Idealize.ShloMosaic.Lib.ValueIdx
import Idealize.ShloMosaic.Lib.StableHlo.Run

set_option maxRecDepth 16384

noncomputable section

namespace Cert.KernelIdeal.ArrayValue

open Cert.KernelIdeal Cert.KernelIdeal.Gen Cert.KernelIdeal.TileRun Cert.ChebCombine
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The whole array -/

/-- The grid's result as one function: `out (v, b, o) = ∑ k, ∑ f, X (k, v, f, b) · W (f, k, o) + β (0, o)`. -/
def byVertex (X : S3x65536x32x16.Idx → EReal) (W : S32x3x32.Idx → EReal) (β : S1x32.Idx → EReal) : S65536x16x32.Idx → EReal :=
  fun i => (∑ k : Fin 3, ∑ f : Fin 32, X (ix4 k (i 0) f (i 1)) * W (ix3 f k (i 2))) + β (ix2 (0 : Fin 1) (i 2))

/-- Where each window's tile sits at point `t`, decided over the 256 points: the features' tile is tile `t` of the second
    axis, the weight and the bias are whole, the output's tile is tile `t` of the first axis. -/
theorem tile_places : ∀ t : Fin cfg0.N,
    win0_0.index t (0 : Fin 4) = 0 ∧ win0_0.index t (1 : Fin 4) = win0_3.index t (0 : Fin 3)
    ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (1 : Fin 3) = 0 ∧ win0_3.index t (2 : Fin 3) = 0 ∧ win0_3.index t (0 : Fin 3) ≤ 255 :=
  (by decide +kernel : ∀ t : Fin grid0.N, _)

/-- Every tile of the output is some point's. -/
theorem tile_onto : ∀ q : Fin 256, ∃ t : Fin cfg0.N, win0_3.index t = ![q.val, 0, 0] :=
  (by decide +kernel : ∀ q : Fin 256, ∃ t : Fin grid0.N, win0_3.index t = ![q.val, 0, 0])

/-- Over ANY three arrays: the read-out of point `t`'s three input tiles is tile `t` of `byVertex` of the arrays. Row `p` of
    the features' tile `t` is row `256·t + p` of the array, which is the row that row `p` of the output's tile `t` names. -/
theorem tile_of_arrays (X : S3x65536x32x16.Idx → EReal) (W : S32x3x32.Idx → EReal) (Bv : S1x32.Idx → EReal) (t : Fin cfg0.N) :
    tile (((cfg0.win 0).blk t).view.read (Elt Ideal) X) (((cfg0.win 1).blk t).view.read (Elt Ideal) W)
        (((cfg0.win 2).blk t).view.read (Elt Ideal) Bv)
      = ((cfg0.win 3).blk t).view.read (Elt Ideal) (byVertex X W Bv) := by
  obtain ⟨e00, e01, e02, e03, e10, e11, e12, e20, e21, e31, e32, e30⟩ := tile_places t
  funext j
  obtain ⟨p, b, o, rfl⟩ : ∃ (p : Fin 256) (b : Fin 16) (o : Fin 32), j = ix3 p b o := ⟨j 0, j 1, j 2, eq_ix3 j⟩
  have hX : ∀ (k : Fin 3) (f : Fin 32), ((cfg0.win 0).blk t).view.read (Elt Ideal) X (ix4 k p f b)
      = X (ix4 k (((cfg0.win 3).blk t).view.emb (ix3 p b o) 0) f b) := by
    intro k f
    show X (((cfg0.win 0).blk t).view.emb (ix4 k p f b)) = _
    refine congrArg X (funext fun a => Fin.ext ?_)
    have hp := p.isLt; have hk := k.isLt; have hf := f.isLt; have hb := b.isLt
    match a with
    | ⟨0, _⟩ => show win0_0.index t (0 : Fin 4) * 3 + 1 * k.val = k.val; omega
    | ⟨1, _⟩ => show win0_0.index t (1 : Fin 4) * 256 + 1 * p.val = win0_3.index t (0 : Fin 3) * 256 + 1 * p.val; omega
    | ⟨2, _⟩ => show win0_0.index t (2 : Fin 4) * 32 + 1 * f.val = f.val; omega
    | ⟨3, _⟩ => show win0_0.index t (3 : Fin 4) * 16 + 1 * b.val = b.val; omega
  have hW : ∀ (k : Fin 3) (f : Fin 32), ((cfg0.win 1).blk t).view.read (Elt Ideal) W (ix3 f k o) = W (ix3 f k o) := by
    intro k f
    show W (((cfg0.win 1).blk t).view.emb (ix3 f k o)) = _
    refine congrArg W (funext fun a => Fin.ext ?_)
    have hk := k.isLt; have hf := f.isLt; have ho := o.isLt
    match a with
    | ⟨0, _⟩ => show win0_1.index t (0 : Fin 3) * 32 + 1 * f.val = f.val; omega
    | ⟨1, _⟩ => show win0_1.index t (1 : Fin 3) * 3 + 1 * k.val = k.val; omega
    | ⟨2, _⟩ => show win0_1.index t (2 : Fin 3) * 32 + 1 * o.val = o.val; omega
  have hB : ((cfg0.win 2).blk t).view.read (Elt Ideal) Bv (ix2 (0 : Fin 1) o) = Bv (ix2 (0 : Fin 1) o) := by
    show Bv (((cfg0.win 2).blk t).view.emb (ix2 (0 : Fin 1) o)) = _
    refine congrArg Bv (funext fun a => Fin.ext ?_)
    have ho := o.isLt
    match a with
    | ⟨0, _⟩ => show win0_2.index t (0 : Fin 2) * 1 + 1 * 0 = 0; omega
    | ⟨1, _⟩ => show win0_2.index t (1 : Fin 2) * 32 + 1 * o.val = o.val; omega
  have hb' : (((cfg0.win 3).blk t).view.emb (ix3 p b o) 1) = b := Fin.ext (by
    show win0_3.index t (1 : Fin 3) * 16 + 1 * b.val = b.val; omega)
  have ho' : (((cfg0.win 3).blk t).view.emb (ix3 p b o) 2) = o := Fin.ext (by
    show win0_3.index t (2 : Fin 3) * 32 + 1 * o.val = o.val; omega)
  show _ = byVertex X W Bv (((cfg0.win 3).blk t).view.emb (ix3 p b o))
  unfold tile byVertex
  rw [hb', ho']
  refine congrArg₂ (· + ·) (Finset.sum_congr rfl fun k _ => Finset.sum_congr rfl fun f _ => ?_) hB
  exact congrArg₂ (· * ·) (hX k f) (hW k f)

/-- What point `t` writes back is tile `t` of `byVertex` of the arrays as the grid finds them. -/
theorem written_eq (c : Dev nD) (t : Fin cfg0.N) :
    (dats m 0 c).flushed 3 t = ((cfg0.win 3).blk t).view.read (Elt Ideal)
      (byVertex (atGrid m c main_v35) (atGrid m c main_arg1) (atGrid m c main_v36)) := by
  show (cfg0.win 3).cut (grid0.coords t) ((dats m 0 c).after 3 t) = _
  rw [after_out, tileOut_eq_tile]
  exact tile_of_arrays (atGrid m c main_v35) (atGrid m c main_arg1) (atGrid m c main_v36) t

/-- An index of the array is in point `t`'s tile iff each coordinate is in the tile's range on its axis. -/
theorem mem_tile (t : Fin cfg0.N) (i : S65536x16x32.Idx) :
    i ∈ ((cfg0.win 3).blk t).view.set ↔ ∀ a : Fin 3, win0_3.index t a * S256x16x32.size a ≤ (i a).val ∧ (i a).val < win0_3.index t a * S256x16x32.size a + S256x16x32.size a := by
  show i ∈ ((View.whole main_v37).slice (win0_3.rect t)).set ↔ _
  rw [View.set_slice_whole, Rect.mem_set_unit]
  exact Iff.rfl

/-- Row `v` lies in the tile of the point whose tile index is `v / 256`. -/
theorem tiles_cover (i : S65536x16x32.Idx) :
    ∃ t : Fin cfg0.N, (cfg0.win 3).flush t = true ∧ i ∈ ((cfg0.win 3).blk t).view.set := by
  have hi0 : (i 0).val < 65536 := (i 0).isLt
  have hi1 : (i 1).val < 16 := (i 1).isLt
  have hi2 : (i 2).val < 32 := (i 2).isLt
  obtain ⟨t, ht⟩ := tile_onto ⟨(i 0).val / 256, by omega⟩
  have q0 : win0_3.index t (0 : Fin 3) = (i 0).val / 256 := congrFun ht 0
  have q1 : win0_3.index t (1 : Fin 3) = 0 := congrFun ht 1
  have q2 : win0_3.index t (2 : Fin 3) = 0 := congrFun ht 2
  refine ⟨t, flush0_3 t, ?_⟩
  rw [mem_tile]
  intro a
  match a with
  | ⟨0, _⟩ => show win0_3.index t (0 : Fin 3) * 256 ≤ (i 0).val ∧ (i 0).val < win0_3.index t (0 : Fin 3) * 256 + 256; omega
  | ⟨1, _⟩ => show win0_3.index t (1 : Fin 3) * 16 ≤ (i 1).val ∧ (i 1).val < win0_3.index t (1 : Fin 3) * 16 + 16; omega
  | ⟨2, _⟩ => show win0_3.index t (2 : Fin 3) * 32 ≤ (i 2).val ∧ (i 2).val < win0_3.index t (2 : Fin 3) * 32 + 32; omega

/-- The grid's result array after the last point. -/
theorem array_final (c : Dev nD) : (dats m 0 c).arrAt 3 cfg0.N
    = byVertex (atGrid m c main_v35) (atGrid m c main_arg1) (atGrid m c main_v36) :=
  (dats m 0 c).arrAt_eq_of_cover 3 _ (fun t _ => written_eq m c t) tiles_cover

end Cert.KernelIdeal.ArrayValue

end
-- ==== Proof.KernelResult.lean ====
/-
  The idealized kernel's run with its result named: the read-out `combine` of the reference's own stacked terms.

  After the grid the result array `[65536, 16, 32]` holds `byVertex` of the arrays the grid was handed. The one host line
  after the grid transposes `(v, b, o)` to `(b, o, v)`: entry `(b, o, v)` of the program's result is `byVertex` at `(v, b, o)`,
  which is `combine` at `(b, o, v)` once the bias row `(0, o)` is read as the bias vector at `o` — the row is the vector
  reshaped. The stacked terms the grid was handed are what the host lines before the grid compute from the
  arguments; the reference program computes its stacked terms by the same operations in the same order, so the two
  terms are one, read off the two programs' texts.
-/
import proofs.«168547_j86663850098736_2_alg».proof.Proof.KernelValue
import proofs.«168547_j86663850098736_2_alg».proof.Proof.Spec
import proofs.«168547_j86663850098736_2_alg».proof.Proof.Gen.ReferenceIdeal.Read
import Idealize.ShloMosaic.Lib.Pipeline.Value
import Idealize.ShloMosaic.Lib.ValueIdx
import Idealize.ShloMosaic.Lib.StableHlo.Run

set_option maxRecDepth 16384

noncomputable section

namespace Cert.KernelIdeal.ResultValue

open Cert.KernelIdeal Cert.KernelIdeal.Gen Cert.KernelIdeal.TileRun Cert.KernelIdeal.ArrayValue Cert.ChebCombine
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The transposition -/

/-- `byVertex` read at `(v, b, o)`, the bias row the bias vector reshaped, is `combine` at `(b, o, v)`. -/
theorem transposed_eq (X : S3x65536x32x16.Idx → EReal) (W : S32x3x32.Idx → EReal) (β : S32.Idx → EReal)
    (h : S65536x16x32.Transposes [1, 2, 0] S16x32x65536) (hs : S32.ShapeCasts S1x32) :
    transpose S16x32x65536 [1, 2, 0] (byVertex X W (shapeCast S1x32 β hs)) h = combine X W β := by
  funext i
  obtain ⟨b, o, v, rfl⟩ : ∃ (b : Fin 16) (o : Fin 32) (v : Fin 65536), i = ix3 b o v := ⟨i 0, i 1, i 2, eq_ix3 i⟩
  refine (transpose_apply [1, 2, 0] _ h (ix3 b o v) (ix3 v b o) (fun a => by
    match a with
    | ⟨0, _⟩ => rfl
    | ⟨1, _⟩ => rfl
    | ⟨2, _⟩ => rfl)).trans ?_
  show (∑ k : Fin 3, ∑ f : Fin 32, X (ix4 k v f b) * W (ix3 f k o)) + shapeCast S1x32 β hs (ix2 (0 : Fin 1) o)
    = (∑ k : Fin 3, ∑ f : Fin 32, X (ix4 k v f b) * W (ix3 f k o)) + β (ix1 o)
  refine congrArg ((∑ k : Fin 3, ∑ f : Fin 32, X (ix4 k v f b) * W (ix3 f k o)) + ·) ?_
  refine shapeCast_apply β hs (ix2 (0 : Fin 1) o) (ix1 o) ?_
  rw [Shape.rowMajor_val_two, Shape.rowMajor_val_one]
  show o.val = 0 * 32 + o.val
  omega

/-! ## The arrays the grid is handed, from the arguments -/

/-- The bias row is the bias vector reshaped. -/
theorem row_eq (c : Dev nD) : (atGrid m c main_v36 : S1x32.Idx → EReal)
    = shapeCast S1x32 (m ((c : Thread nD τ).loc main_arg2)) shapeCasts_S32_S1x32 := by
  show StableHlo.after hostOps0 (fun b => m (c, b)) (Proc.devRef .tc main_v36) = _
  after_results
  rfl

set_option maxHeartbeats 2000000 in
/-- The stacked terms are the reference's stacked terms of the same arguments: the two programs' first forty-four host
    lines are the same operations on the same buffers. -/
theorem stacked_eq (c : Dev nD) : (atGrid m c main_v35 : S3x65536x32x16.Idx → EReal)
    = Cert.ReferenceIdeal.Read.val_main_v35 (F := Ideal) (m ((c : Thread nD τ).loc main_arg0)) (m ((c : Thread nD τ).loc main_arg3))
        (m ((c : Thread nD τ).loc main_arg4)) (m ((c : Thread nD τ).loc main_arg5)) := by
  show StableHlo.after hostOps0 (fun b => m (c, b)) (Proc.devRef .tc main_v35) = _
  after_results
  rfl

/-! ## The result -/

/-- The program's result buffer after the last host line: the grid's result array, transposed. -/
theorem result_at_end (c : Dev nD) :
    Pipeline.afterTail₀ cfgs (dats m) 0 (atGrid₀ m) [hostOps1] c main_v38
      = transpose S16x32x65536 [1, 2, 0] (byVertex (atGrid m c main_v35) (atGrid m c main_arg1) (atGrid m c main_v36))
          transposes_S65536x16x32_S16x32x65536_1_2_0 := by
  unfold Pipeline.afterTail₀
  show StableHlo.after hostOps1 _ (Proc.devRef .tc main_v38) = _
  after_results
  exact congrArg (fun y => transpose S16x32x65536 [1, 2, 0] y transposes_S65536x16x32_S16x32x65536_1_2_0)
    ((Pipeline.withArrays_arr spec0 launch0.win.arr_inj c _ _ 3).trans (array_final m c))

/-- The program's result, from the arguments: `combine` of the stacked terms, the weight and the bias. -/
theorem result_eq (c : Dev nD) :
    Pipeline.afterTail₀ cfgs (dats m) 0 (atGrid₀ m) [hostOps1] c main_v38
      = combine (Cert.ReferenceIdeal.Read.val_main_v35 (F := Ideal) (m ((c : Thread nD τ).loc main_arg0)) (m ((c : Thread nD τ).loc main_arg3))
          (m ((c : Thread nD τ).loc main_arg4)) (m ((c : Thread nD τ).loc main_arg5)))
        (m ((c : Thread nD τ).loc main_arg1)) (m ((c : Thread nD τ).loc main_arg2)) := by
  rw [result_at_end, row_eq, stacked_eq, atGrid_arg1]
  exact transposed_eq _ _ _ _ _

/-- Every weakly fair execution of the idealized kernel's @main terminates, faults nowhere, ends with its result at
    `combine` of the reference's stacked terms of the arguments, the weight and the bias, and with the six arguments as
    launched. -/
theorem run : θ_run defs (onTc (τ := τ) (main (F := Ideal))) ⟨m, fun _ => 0, ρ⟩ (fun r => ∀ c : Dev nD,
      r.2.mem ((c.tc : Thread nD τ).loc main_v38)
        = combine (Cert.ReferenceIdeal.Read.val_main_v35 (F := Ideal) (m ((c : Thread nD τ).loc main_arg0)) (m ((c : Thread nD τ).loc main_arg3))
            (m ((c : Thread nD τ).loc main_arg4)) (m ((c : Thread nD τ).loc main_arg5)))
          (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v38 (Pipeline.mem_restRefs_of main_v38 (by decide) (by decide))).trans (result_eq m c),
      args_kept_of m r h c⟩) (run_main m ρ)

end Cert.KernelIdeal.ResultValue

end
-- ==== Proof.RefValue.lean ====
/-
  The reference's result is the read-out `combine` of its stacked terms.

  After the three polynomial terms are stacked into one array `T (k, v, f, b)`, the reference program computes its result
  by a chain of re-layouts around one matrix product: the stacked terms are transposed to `(b, v, f, k)` and flattened to
  a matrix with rows `r = b · 65536 + v` and columns `c = 3 · f + k`; the weight `W (f, k, o)` is flattened to a matrix with the
  same rows `c = 3 · f + k` and columns `o`; the product's entry `(r, o)` is `∑ c, T (c % 3, v, c / 3, b) · W (c / 3, c % 3, o)`;
  the bias `β o` is added to every row; the rows are split back into `(b, v)` and the last two axes are exchanged.

  So the entry `(b, o, v)` of the result is `∑ c : Fin 96, T (c % 3, v, c / 3, b) · W (c / 3, c % 3, o) + β o`. The ninety-six
  columns are the pairs `(f, k)` with `f < 32`, `k < 3`, each exactly once (`c ↦ (c / 3, c % 3)` is a bijection), so the sum is
  the double sum `∑ k, ∑ f, T (k, v, f, b) · W (f, k, o)`: the same terms in another order. Only the commutative monoid of the
  extended reals' addition is used; no entry has to be finite, and the stacked terms stay an opaque array throughout.
-/
import proofs.«168547_j86663850098736_2_alg».proof.Proof.Gen.ReferenceIdeal.Read
import proofs.«168547_j86663850098736_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-! ## The index maps of the re-layouts, at explicit coordinates -/

/-- The row `b · 65536 + v` of the flattened matrices. -/
abbrev row (b : Fin 16) (v : Fin 65536) : Fin 1048576 := ⟨b.val * 65536 + v.val, by omega⟩

/-- The input feature `c / 3` of a column `c = 3 · f + k`. -/
abbrev feat (c : Fin 96) : Fin 32 := ⟨c.val / 3, by omega⟩

/-- The polynomial term `c % 3` of a column `c = 3 · f + k`. -/
abbrev term (c : Fin 96) : Fin 3 := ⟨c.val % 3, by omega⟩

/-- The last transpose reads `(b, o, v)` at `(b, v, o)`. -/
theorem idx44 (b : Fin 16) (o : Fin 32) (v : Fin 65536) : idx_main_v44 (ix3 b o v) = ix3 b v o :=
  funext fun a => Fin.ext (by match a with | ⟨0, _⟩ => rfl | ⟨1, _⟩ => rfl | ⟨2, _⟩ => rfl)

/-- Splitting the rows: `(b, v, o)` is entry `(b · 65536 + v, o)` of the matrix. -/
theorem idx43 (b : Fin 16) (v : Fin 65536) (o : Fin 32) : idx_main_v43 (ix3 b v o) = ix2 (row b v) o :=
  funext fun a => Fin.ext (by
    have hb := b.isLt; have hv := v.isLt; have ho := o.isLt
    match a with
    | ⟨0, _⟩ => show ((b.val * 65536 + v.val) * 32 + o.val) / 32 = b.val * 65536 + v.val; omega
    | ⟨1, _⟩ => show ((b.val * 65536 + v.val) * 32 + o.val) % 32 = o.val; omega)

/-- The bias row broadcast over the rows reads column `o` of the one-row matrix. -/
theorem idx41 (r : Fin 1048576) (o : Fin 32) : idx_main_v41 (ix2 r o) = ix2 (0 : Fin 1) o :=
  funext fun a => Fin.ext (by match a with | ⟨0, _⟩ => rfl | ⟨1, _⟩ => rfl)

/-- The one-row matrix reads the bias at `o`. -/
theorem idx40 (z : Fin 1) (o : Fin 32) : idx_main_v40 (ix2 z o) = ix1 o :=
  funext fun a => Fin.ext (by match a with | ⟨0, _⟩ => rfl)

/-- The product's left factor at output `(r, o)` and column `c` is entry `(r, c)`. -/
theorem lidx39 (r : Fin 1048576) (o : Fin 32) (c : Fin 96) : lidx_main_v39 (ix2 r o) c = ix2 r c :=
  funext fun a => Fin.ext (by match a with | ⟨0, _⟩ => rfl | ⟨1, _⟩ => rfl)

/-- The product's right factor at output `(r, o)` and column `c` is entry `(c, o)`. -/
theorem ridx39 (r : Fin 1048576) (o : Fin 32) (c : Fin 96) : ridx_main_v39 (ix2 r o) c = ix2 c o :=
  funext fun a => Fin.ext (by match a with | ⟨0, _⟩ => rfl | ⟨1, _⟩ => rfl)

/-- Flattening `(b, v, f, k)`: entry `(b · 65536 + v, c)` is `(b, v, c / 3, c % 3)`. -/
theorem idx37 (b : Fin 16) (v : Fin 65536) (c : Fin 96) : idx_main_v37 (ix2 (row b v) c) = ix4 b v (feat c) (term c) :=
  funext fun a => Fin.ext (by
    have hb := b.isLt; have hv := v.isLt; have hc := c.isLt
    match a with
    | ⟨0, _⟩ => show ((b.val * 65536 + v.val) * 96 + c.val) / 6291456 = b.val; omega
    | ⟨1, _⟩ => show ((b.val * 65536 + v.val) * 96 + c.val) / 96 % 65536 = v.val; omega
    | ⟨2, _⟩ => show ((b.val * 65536 + v.val) * 96 + c.val) / 3 % 32 = c.val / 3; omega
    | ⟨3, _⟩ => show ((b.val * 65536 + v.val) * 96 + c.val) % 3 = c.val % 3; omega)

/-- The transpose of the stacked terms reads `(b, v, f, k)` at `(k, v, f, b)`. -/
theorem idx36 (b : Fin 16) (v : Fin 65536) (f : Fin 32) (k : Fin 3) : idx_main_v36 (ix4 b v f k) = ix4 k v f b :=
  funext fun a => Fin.ext (by match a with | ⟨0, _⟩ => rfl | ⟨1, _⟩ => rfl | ⟨2, _⟩ => rfl | ⟨3, _⟩ => rfl)

/-- Flattening the weight: entry `(c, o)` is `(c / 3, c % 3, o)`. -/
theorem idx38 (c : Fin 96) (o : Fin 32) : idx_main_v38 (ix2 c o) = ix3 (feat c) (term c) o :=
  funext fun a => Fin.ext (by
    have hc := c.isLt; have ho := o.isLt
    match a with
    | ⟨0, _⟩ => show (c.val * 32 + o.val) / 96 = c.val / 3; omega
    | ⟨1, _⟩ => show (c.val * 32 + o.val) / 32 % 3 = c.val % 3; omega
    | ⟨2, _⟩ => show (c.val * 32 + o.val) % 32 = o.val; omega)

/-! ## The ninety-six columns are the pairs (feature, term) -/

/-- A sum over the columns `c = 3 · f + k` is the double sum over the terms `k` and the features `f`. -/
theorem sum_columns {M : Type*} [AddCommMonoid M] (g : Fin 32 → Fin 3 → M) :
    ∑ c : Fin 96, g (feat c) (term c) = ∑ k : Fin 3, ∑ f : Fin 32, g f k := by
  rw [Finset.sum_comm, ← Fintype.sum_prod_type (f := fun p : Fin 32 × Fin 3 => g p.1 p.2)]
  exact Fintype.sum_equiv (finProdFinEquiv (m := 32) (n := 3)).symm _ _ (fun c => rfl)

/-! ## The reference's result -/

/-- The reference's result is `combine` of the stacked terms, the weight and the bias. -/
theorem ref_is_combine (x0 : (⟨S16x32x65536, .f32⟩ : BufTy).Contents (Elt Ideal)) (x1 : (⟨S32x3x32, .f32⟩ : BufTy).Contents (Elt Ideal))
    (x2 : (⟨S32, .f32⟩ : BufTy).Contents (Elt Ideal)) (x3 : (⟨S261120, .f32⟩ : BufTy).Contents (Elt Ideal))
    (x4 x5 : (⟨S261120, .i32⟩ : BufTy).Contents (Elt Ideal)) :
    Read.val_main_v44 (F := Ideal) x0 x1 x2 x3 x4 x5
      = Cert.ChebCombine.combine (Read.val_main_v35 (F := Ideal) x0 x3 x4 x5) x1 x2 := by
  funext i
  obtain ⟨b, o, v, rfl⟩ : ∃ (b : Fin 16) (o : Fin 32) (v : Fin 65536), i = ix3 b o v := ⟨i 0, i 1, i 2, eq_ix3 i⟩
  generalize hT : Read.val_main_v35 (F := Ideal) x0 x3 x4 x5 = T
  have hcol : ∀ c : Fin 96,
      Read.val_main_v37 (F := Ideal) x0 x3 x4 x5 (lidx_main_v39 (ix2 (row b v) o) c)
          * Read.val_main_v38 (F := Ideal) x1 (ridx_main_v39 (ix2 (row b v) o) c)
        = T (ix4 (term c) v (feat c) b) * x1 (ix3 (feat c) (term c) o) := by
    intro c
    rw [lidx39, ridx39, val_main_v37_apply, idx37, val_main_v36_apply, idx36, hT, val_main_v38_apply, idx38]
  rw [val_main_v44_apply, idx44, val_main_v43_apply, idx43, val_main_v42_apply, Ideal.addf_def, val_main_v39_apply,
    val_main_v41_apply, idx41, val_main_v40_apply, idx40, Finset.sum_congr rfl (fun c _ => hcol c),
    sum_columns (fun f k => T (ix4 k v f b) * x1 (ix3 f k o))]
  rfl

end Cert.ReferenceIdeal.RefValue

end
-- ==== Proof.lean ====
/-
  A graph convolution's read-out, tiled over the vertices, against the same read-out as one matrix product.

  Both programs first build three feature arrays over the 65536 vertices — the input re-laid as `[vertex, feature·batch]`,
  a sparse matrix applied to it once (gather the rows the edge list names, scale by the edge weights, add them into
  the rows the edge list targets), and twice that matrix applied again minus the first — by the same host operations
  in the same order, and stack them: `X (k, v, f, b)`. They differ only in how they mix the stack with the weight
  `W (f, k, o)` and add the bias `β o`:

  * the kernel walks the vertices in 256 tiles; in a tile it multiplies, for each term `k`, the `[4096, 32]` matrix of
    that term's rows `(p, b)` by the `[32, 32]` slice `W (·, k, ·)`, adds the three products in order to zero, adds the
    bias, and a last host line transposes `(v, b, o)` to `(b, o, v)`;
  * the reference flattens the stack to a `[1048576, 96]` matrix with columns `c = 3·f + k`, multiplies it by the weight
    flattened the same way, adds the bias, and re-lays the rows.

  Read with exact arithmetic on the extended reals (rounding to a narrower format is the identity), entry `(b, o, v)`
  of either result is `∑ k, ∑ f, X (k, v, f, b) · W (f, k, o) + β o` (`combine`): the kernel adds the ninety-six products
  grouped by term, the reference in column order, and a finite sum in a commutative monoid does not depend on the
  order. Nothing is distributed or cancelled, so the finiteness of the inputs is never used. The stacked terms are
  never opened: the kernel's are shown to be the reference's by comparing the two texts.

  The modules: `Spec` (the read-out), `RefValue` (the reference is `combine`), `TilePayload` and `TileOut` (the body's
  arithmetic is `tile`), `KernelIdealRun` / `KernelRun` (every execution ends, faults nowhere, keeps the arguments;
  what each tile of the output holds), `KernelValue` (the tiles make one array), `KernelResult` (the transposition,
  and the stacked terms from the arguments).
-/
import proofs.«168547_j86663850098736_2_alg».proof.Defs
import proofs.«168547_j86663850098736_2_alg».proof.Proof.Gen.Kernel
import proofs.«168547_j86663850098736_2_alg».proof.Proof.Gen.Kernel.Skeleton
import proofs.«168547_j86663850098736_2_alg».proof.Proof.Gen.Kernel.Launch
import proofs.«168547_j86663850098736_2_alg».proof.Proof.Gen.Kernel.Points
import proofs.«168547_j86663850098736_2_alg».proof.Proof.Gen.KernelIdeal
import proofs.«168547_j86663850098736_2_alg».proof.Proof.Gen.KernelIdeal.Skeleton
import proofs.«168547_j86663850098736_2_alg».proof.Proof.Gen.KernelIdeal.Launch
import proofs.«168547_j86663850098736_2_alg».proof.Proof.Gen.KernelIdeal.Points
import proofs.«168547_j86663850098736_2_alg».proof.Proof.Gen.ReferenceIdeal
import proofs.«168547_j86663850098736_2_alg».proof.Proof.Gen.Pre_finite_inputs
import proofs.«168547_j86663850098736_2_alg».proof.Proof.Gen.ReferenceIdeal.Run
import proofs.«168547_j86663850098736_2_alg».proof.Proof.Gen.ReferenceIdeal.Read
import proofs.«168547_j86663850098736_2_alg».proof.Proof.KernelRun
import proofs.«168547_j86663850098736_2_alg».proof.Proof.KernelResult
import proofs.«168547_j86663850098736_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed: every execution ends, faults nowhere and keeps the six arguments. -/
theorem frame_kernel : Cert.frame_Kernel := fun m ρ _ => Cert.Kernel.TileRun.args_kept (F := Bits) m ρ

/-- The same of its reading over the extended reals. -/
theorem frame_kernelIdeal : Cert.frame_KernelIdeal := fun m ρ _ => Cert.KernelIdeal.TileRun.args_kept (F := Ideal) m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with `combine` of the stacked terms, the weight and the
    bias: the kernel by its tiles, the reference by its one matrix product. -/
theorem algebraic : Cert.algebraic_KernelIdeal_ReferenceIdeal := by
  intro m ρ m' ρ' _ hagree
  refine ⟨_, Cert.KernelIdeal.ResultValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.ReferenceIdeal.RefValue.ref_is_combine,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
